-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x800000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S10000x64 : Shape := ⟨2, ![10000, 64]⟩
abbrev S900000x64 : Shape := ⟨2, ![900000, 64]⟩
abbrev S1x64 : Shape := ⟨2, ![1, 64]⟩

abbrev nBuf : Space → Nat
  | .hbm => 109
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S100000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S1x800000, .i32⟩
  | .hbm, ⟨16, _⟩ => ⟨S800000, .i32⟩
  | .hbm, ⟨17, _⟩ => ⟨S900000, .i32⟩
  | .hbm, ⟨18, _⟩ => ⟨S_, .f32⟩
  | .hbm, ⟨19, _⟩ => ⟨S900000, .f32⟩
  | .hbm, ⟨20, _⟩ => ⟨S_, .f32⟩
  | .hbm, ⟨21, _⟩ => ⟨S100000, .f32⟩
  | .hbm, ⟨22, _⟩ => ⟨S900000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S_, .i32⟩
  | .hbm, ⟨42, _⟩ => ⟨S900000, .i32⟩
  | .hbm, ⟨43, _⟩ => ⟨S900000, .i1⟩
  | .hbm, ⟨44, _⟩ => ⟨S_, .i32⟩
  | .hbm, ⟨45, _⟩ => ⟨S900000, .i32⟩
  | .hbm, ⟨46, _⟩ => ⟨S900000, .i32⟩
  | .hbm, ⟨47, _⟩ => ⟨S900000, .i32⟩
  | .hbm, ⟨48, _⟩ => ⟨S900000x1, .i32⟩
  | .hbm, ⟨49, _⟩ => ⟨S900000, .f32⟩
  | .hbm, ⟨50, _⟩ => ⟨S900000, .f32⟩
  | .hbm, ⟨51, _⟩ => ⟨S900000x1, .f32⟩
  | .hbm, ⟨52, _⟩ => ⟨S100000x64, .bf16⟩
  | .hbm, ⟨53, _⟩ => ⟨S_, .i32⟩
  | .hbm, ⟨54, _⟩ => ⟨S900000, .i32⟩
  | .hbm, ⟨55, _⟩ => ⟨S900000, .i1⟩
  | .hbm, ⟨56, _⟩ => ⟨S_, .i32⟩
  | .hbm, ⟨57, _⟩ => ⟨S900000, .i32⟩
  | .hbm, ⟨58, _⟩ => ⟨S900000, .i32⟩
  | .hbm, ⟨59, _⟩ => ⟨S900000, .i32⟩
  | .hbm, ⟨60, _⟩ => ⟨S900000x1, .i32⟩
  | .hbm, ⟨61, _⟩ => ⟨S900000x64, .bf16⟩
  | .hbm, ⟨62, _⟩ => ⟨S900000x64, .f32⟩
  | .hbm, ⟨63, _⟩ => ⟨S900000x64, .f32⟩
  | .hbm, ⟨64, _⟩ => ⟨S900000x64, .f32⟩
  | .hbm, ⟨65, _⟩ => ⟨S_, .f32⟩
  | .hbm, ⟨66, _⟩ => ⟨S100000x64, .f32⟩
  | .hbm, ⟨67, _⟩ => ⟨S900000x1, .i32⟩
  | .hbm, ⟨68, _⟩ => ⟨S100000x64, .f32⟩
  | .hbm, ⟨69, _⟩ => ⟨S1x64, .f32⟩
  | .hbm, ⟨70, _⟩ => ⟨S100000x64, .bf16⟩
  | .hbm, ⟨71, _⟩ => ⟨S_, .i32⟩
  | .hbm, ⟨72, _⟩ => ⟨S900000, .i32⟩
  | .hbm, ⟨73, _⟩ => ⟨S900000, .i1⟩
  | .hbm, ⟨74, _⟩ => ⟨S_, .i32⟩
  | .hbm, ⟨75, _⟩ => ⟨S900000, .i32⟩
  | .hbm, ⟨76, _⟩ => ⟨S900000, .i32⟩
  | .hbm, ⟨77, _⟩ => ⟨S900000, .i32⟩
  | .hbm, ⟨78, _⟩ => ⟨S900000x1, .i32⟩
  | .hbm, ⟨79, _⟩ => ⟨S900000x64, .bf16⟩
  | .hbm, ⟨80, _⟩ => ⟨S900000x64, .f32⟩
  | .hbm, ⟨81, _⟩ => ⟨S900000x64, .f32⟩
  | .hbm, ⟨82, _⟩ => ⟨S900000x64, .f32⟩
  | .hbm, ⟨83, _⟩ => ⟨S_, .f32⟩
  | .hbm, ⟨84, _⟩ => ⟨S100000x64, .f32⟩
  | .hbm, ⟨85, _⟩ => ⟨S900000x1, .i32⟩
  | .hbm, ⟨86, _⟩ => ⟨S100000x64, .f32⟩
  | .hbm, ⟨87, _⟩ => ⟨S1x64, .f32⟩
  | .hbm, ⟨88, _⟩ => ⟨S100000x64, .bf16⟩
  | .hbm, ⟨89, _⟩ => ⟨S_, .i32⟩
  | .hbm, ⟨90, _⟩ => ⟨S900000, .i32⟩
  | .hbm, ⟨91, _⟩ => ⟨S900000, .i1⟩
  | .hbm, ⟨92, _⟩ => ⟨S_, .i32⟩
  | .hbm, ⟨93, _⟩ => ⟨S900000, .i32⟩
  | .hbm, ⟨94, _⟩ => ⟨S900000, .i32⟩
  | .hbm, ⟨95, _⟩ => ⟨S900000, .i32⟩
  | .hbm, ⟨96, _⟩ => ⟨S900000x1, .i32⟩
  | .hbm, ⟨97, _⟩ => ⟨S900000x64, .bf16⟩
  | .hbm, ⟨98, _⟩ => ⟨S900000x64, .f32⟩
  | .hbm, ⟨99, _⟩ => ⟨S900000x64, .f32⟩
  | .hbm, ⟨100, _⟩ => ⟨S900000x64, .f32⟩
  | .hbm, ⟨101, _⟩ => ⟨S_, .f32⟩
  | .hbm, ⟨102, _⟩ => ⟨S100000x64, .f32⟩
  | .hbm, ⟨103, _⟩ => ⟨S900000x1, .i32⟩
  | .hbm, ⟨104, _⟩ => ⟨S100000x64, .f32⟩
  | .hbm, ⟨105, _⟩ => ⟨S1x64, .f32⟩
  | .hbm, ⟨106, _⟩ => ⟨S1x64, .f32⟩
  | .hbm, ⟨107, _⟩ => ⟨S100000x64, .f32⟩
  | .hbm, ⟨108, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .bf16⟩
  | .local _ .vmem, ⟨16, _⟩ => ⟨S10000x64, .bf16⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77_0 : Ref sig .tc := ⟨.hbm, 107, rfl⟩
abbrev main_v77_1 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x64_S64x64_S10000x64_1_0_0_1_n_n_wf : DotDims.WF S10000x64 S64x64 S10000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .bf16 = 32 ∨ (Rect.block (s := S100000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77_0) S10000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v77_1) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x64 : Shape := ⟨2, ![900000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S100000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S1x800000, .i32⟩
  | .hbm, ⟨16, _⟩ => ⟨S800000, .i32⟩
  | .hbm, ⟨17, _⟩ => ⟨S900000, .i32⟩
  | .hbm, ⟨18, _⟩ => ⟨S_, .f32⟩
  | .hbm, ⟨19, _⟩ => ⟨S900000, .f32⟩
  | .hbm, ⟨20, _⟩ => ⟨S_, .f32⟩
  | .hbm, ⟨21, _⟩ => ⟨S100000, .f32⟩
  | .hbm, ⟨22, _⟩ => ⟨S900000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S_, .i32⟩
  | .hbm, ⟨42, _⟩ => ⟨S900000, .i32⟩
  | .hbm, ⟨43, _⟩ => ⟨S900000, .i1⟩
  | .hbm, ⟨44, _⟩ => ⟨S_, .i32⟩
  | .hbm, ⟨45, _⟩ => ⟨S900000, .i32⟩
  | .hbm, ⟨46, _⟩ => ⟨S900000, .i32⟩
  | .hbm, ⟨47, _⟩ => ⟨S900000, .i32⟩
  | .hbm, ⟨48, _⟩ => ⟨S900000x1, .i32⟩
  | .hbm, ⟨49, _⟩ => ⟨S900000, .f32⟩
  | .hbm, ⟨50, _⟩ => ⟨S100000x64, .f32⟩
  | .hbm, ⟨51, _⟩ => ⟨S_, .i32⟩
  | .hbm, ⟨52, _⟩ => ⟨S900000, .i32⟩
  | .hbm, ⟨53, _⟩ => ⟨S900000, .i1⟩
  | .hbm, ⟨54, _⟩ => ⟨S_, .i32⟩
  | .hbm, ⟨55, _⟩ => ⟨S900000, .i32⟩
  | .hbm, ⟨56, _⟩ => ⟨S900000, .i32⟩
  | .hbm, ⟨57, _⟩ => ⟨S900000, .i32⟩
  | .hbm, ⟨58, _⟩ => ⟨S900000x1, .i32⟩
  | .hbm, ⟨59, _⟩ => ⟨S900000x64, .f32⟩
  | .hbm, ⟨60, _⟩ => ⟨S900000, .f32⟩
  | .hbm, ⟨61, _⟩ => ⟨S900000x1, .f32⟩
  | .hbm, ⟨62, _⟩ => ⟨S900000x64, .f32⟩
  | .hbm, ⟨63, _⟩ => ⟨S900000x64, .f32⟩
  | .hbm, ⟨64, _⟩ => ⟨S_, .f32⟩
  | .hbm, ⟨65, _⟩ => ⟨S100000x64, .f32⟩
  | .hbm, ⟨66, _⟩ => ⟨S900000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S900000, .i32⟩
  | .hbm, ⟨77, _⟩ => ⟨S900000, .i1⟩
  | .hbm, ⟨78, _⟩ => ⟨S_, .i32⟩
  | .hbm, ⟨79, _⟩ => ⟨S900000, .i32⟩
  | .hbm, ⟨80, _⟩ => ⟨S900000, .i32⟩
  | .hbm, ⟨81, _⟩ => ⟨S900000, .i32⟩
  | .hbm, ⟨82, _⟩ => ⟨S900000x1, .i32⟩
  | .hbm, ⟨83, _⟩ => ⟨S900000x64, .f32⟩
  | .hbm, ⟨84, _⟩ => ⟨S900000, .f32⟩
  | .hbm, ⟨85, _⟩ => ⟨S900000x1, .f32⟩
  | .hbm, ⟨86, _⟩ => ⟨S900000x64, .f32⟩
  | .hbm, ⟨87, _⟩ => ⟨S900000x64, .f32⟩
  | .hbm, ⟨88, _⟩ => ⟨S_, .f32⟩
  | .hbm, ⟨89, _⟩ => ⟨S100000x64, .f32⟩
  | .hbm, ⟨90, _⟩ => ⟨S900000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S_, .i32⟩
  | .hbm, ⟨100, _⟩ => ⟨S900000, .i32⟩
  | .hbm, ⟨101, _⟩ => ⟨S900000, .i1⟩
  | .hbm, ⟨102, _⟩ => ⟨S_, .i32⟩
  | .hbm, ⟨103, _⟩ => ⟨S900000, .i32⟩
  | .hbm, ⟨104, _⟩ => ⟨S900000, .i32⟩
  | .hbm, ⟨105, _⟩ => ⟨S900000, .i32⟩
  | .hbm, ⟨106, _⟩ => ⟨S900000x1, .i32⟩
  | .hbm, ⟨107, _⟩ => ⟨S900000x64, .f32⟩
  | .hbm, ⟨108, _⟩ => ⟨S900000, .f32⟩
  | .hbm, ⟨109, _⟩ => ⟨S900000x1, .f32⟩
  | .hbm, ⟨110, _⟩ => ⟨S900000x64, .f32⟩
  | .hbm, ⟨111, _⟩ => ⟨S900000x64, .f32⟩
  | .hbm, ⟨112, _⟩ => ⟨S_, .f32⟩
  | .hbm, ⟨113, _⟩ => ⟨S100000x64, .f32⟩
  | .hbm, ⟨114, _⟩ => ⟨S900000x1, .i32⟩
  | .hbm, ⟨115, _⟩ => ⟨S100000x64, .f32⟩
  | .hbm, ⟨116, _⟩ => ⟨S1x64, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x64, .f32⟩
  | .hbm, ⟨123, _⟩ => ⟨S1x64, .f32⟩
  | .hbm, ⟨124, _⟩ => ⟨S100000x64, .f32⟩
  | .hbm, ⟨125, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call2_cst : Ref sig .tc := ⟨.hbm, 95, rfl⟩
abbrev main_call2_v0 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_c_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x64_S64x64_S100000x64_1_0_0_1_n_n_wf : DotDims.WF S100000x64 S64x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.KernelRun.lean ====
/-
  The kernel program's run, with every buffer at the end named.

  From any memory with zero counters, every weakly fair execution of the program terminates without a fault, and in the
  final state each unscoped buffer of a core holds the last boundary's contents `W10`: the fold, through the program's
  host stretches and its four regions, of the contents at launch. In particular the two result buffers hold `W10` at
  their references, and each argument buffer what it held at launch.
-/
import proofs.«150815_j19430432047388_2_alg».proof.Proof.Gen.KernelIdeal.Frame

set_option maxRecDepth 16384

noncomputable section

namespace Cert.KernelIdeal.RunEnd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each unscoped buffer at the last boundary's contents. -/
theorem run_end : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run with the two results and the arguments read: each result buffer ends at the last boundary's contents at
    its reference, each argument buffer as launched. -/
theorem run_results : θ_run defs (onTc (τ := τ) (main (F := F))) ⟨m, fun _ => 0, ρ⟩ (fun r => ∀ c : Dev nD,
      r.2.mem ((c.tc : Thread nD τ).loc main_v77_0) = W10 m ρ c (Proc.devRef .tc main_v77_0)
      ∧ r.2.mem ((c.tc : Thread nD τ).loc main_v77_1) = W10 m ρ c (Proc.devRef .tc main_v77_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v77_0 (by decide)),
     h c _ (mem_uc main_v77_1 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c)⟩)
    (run_end m ρ)

end Cert.KernelIdeal.RunEnd

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«150815_j19430432047388_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibRowTiles.lean ====
/-
  A matrix product computed one tile of rows at a time.

  Split the rows of an [M, K] matrix into tiles of R consecutive rows. The tile that starts at row o, multiplied by a
  whole [K, B] matrix, gives rows o … o + R − 1 of the whole product: entry (r, e) of the tile's product and entry
  (o + r, e) of the whole product are the same sum over k of L(o + r, k) · W(k, e). Stated with the tile and the
  right factor given by what they read — the tile's entry (r, k) is the matrix's entry (o + r, k), the factor's entry
  is the whole factor's entry — so that it applies to blocks fetched through a window. On the ideal values the
  kernel's `tpu.matmul` into a zero accumulator and the host's `dot_general` are both that sum, whatever element
  formats the operands carry and whatever precision or schedule is asked for.
-/
import Idealize.ShloMosaic.PureOps.Ideal.Laws
import Idealize.ShloMosaic.Lib.ValueIdx
import proofs.«150815_j19430432047388_2_alg».proof.Proof.LibPlainMatmul
import proofs.«150815_j19430432047388_2_alg».proof.Proof.LibPlainDot

noncomputable section

namespace Cert.LibRowTiles

open Idealize.ShloMosaic Idealize.ShloMosaic.ValueIdx

/-- Entry (r, e) of the product of a row tile with the right factor is entry (o + r, e) of the whole product. -/
theorem tile_product_eq (M K B R : Nat) {φ₁ φ₂ ψ₁ ψ₂ : FTy} (prec prec' : Option ContractPrecision) (sched : HostSchedule)
    (a : FVec Ideal ⟨2, ![M, K]⟩ φ₁) (w : FVec Ideal ⟨2, ![K, B]⟩ φ₂)
    (xa : FVec Ideal ⟨2, ![R, K]⟩ ψ₁) (xw : FVec Ideal ⟨2, ![K, B]⟩ ψ₂)
    (r : Fin R) (e : Fin B) (row : Fin M)
    (hxa : ∀ k : Fin K, xa (ix2 r k) = a (ix2 row k))
    (hxw : ∀ k : Fin K, xw (ix2 k e) = w (ix2 k e)) :
    FloatOps.matmul (DotDims.plain R K B) prec xa xw (constant ⟨2, ![R, B]⟩ .f32 0x00000000#32) (ix2 r e)
      = FloatOps.dotGeneral (DotDims.plain M K B) prec' sched a w (ix2 row e) := by
  rw [matmul_plain_zero_apply, Cert.LibPlainDot.dotGeneral_plain_apply]
  exact Finset.sum_congr rfl fun k _ => by rw [hxa k, hxw k]

end Cert.LibRowTiles

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.WholeArrays.lean ====
/-
  The dense stages of the network as functions of whole arrays, at the ideal values.

  `product a w` is the matrix product of an [N, 64] array of node features with a [64, 64] weight matrix, N = 100000:
  entry (n, e) is Σ_k a(n, k) · w(k, e). `shiftRectify g b` adds the row b ([1, 64]) to every row of g and takes the
  positive part entry by entry: entry (n, k) is max (g(n, k) + b(0, k)) 0. `shift g b` only adds the row. Each is spelt
  with the operations a host program uses for it (one `dot_general`; a broadcast of the row over the rows, an addition,
  a maximum with a splat of zero), and each is read at an index as the formula above, whatever element formats the
  operands carry.
-/
import Idealize.ShloMosaic.PureOps.Ideal.Laws
import Idealize.ShloMosaic.Lib.ValueIdx
import Idealize.ShloMosaic.Lib.Pipeline.Value
import proofs.«150815_j19430432047388_2_alg».proof.Proof.LibPlainDot

noncomputable section

namespace Cert.Dense

open Idealize.ShloMosaic Idealize.ShloMosaic.ValueIdx

/-- Node features: one row of 64 entries per node. -/
abbrev Nodes : Shape := ⟨2, ![100000, 64]⟩
/-- A weight matrix. -/
abbrev Weights : Shape := ⟨2, ![64, 64]⟩
/-- A bias, kept as a row. -/
abbrev Row : Shape := ⟨2, ![1, 64]⟩
/-- A scalar. -/
abbrev Scalar0 : Shape := ⟨0, ![]⟩

theorem row_over_nodes : Row.BroadcastsInDim Nodes (![0, 1] : Fin 2 → Fin Nodes.rank) := by decide
theorem scalar_over_nodes : Scalar0.BroadcastsInDim Nodes (![] : Fin 0 → Fin Nodes.rank) := by decide

/-- The product of the node features with a weight matrix. -/
def product {φ ψ : FTy} (a : FVec Ideal Nodes φ) (w : FVec Ideal Weights ψ) : FVec Ideal Nodes .f32 :=
  FloatOps.dotGeneral (DotDims.plain 100000 64 64) none .single a w

/-- Entry (n, e) of the product is Σ_k a(n, k) · w(k, e). -/
theorem product_apply {φ ψ : FTy} (a : FVec Ideal Nodes φ) (w : FVec Ideal Weights ψ) (n : Fin 100000) (e : Fin 64) :
    product a w (ix2 n e) = ∑ k : Fin 64, a (ix2 n k) * w (ix2 k e) :=
  Cert.LibPlainDot.dotGeneral_plain_apply 100000 64 64 none .single a w n e

/-- The row b added to every row of g. -/
def shift (g : FVec Ideal Nodes .f32) (b : FVec Ideal Row .f32) : FVec Ideal Nodes .f32 :=
  addf g (broadcastInDim Nodes ![0, 1] row_over_nodes b)

/-- The row b added to every row of g, then the positive part of every entry. -/
def shiftRectify (g : FVec Ideal Nodes .f32) (b : FVec Ideal Row .f32) : FVec Ideal Nodes .f32 :=
  maximumf (shift g b) (broadcastInDim Nodes ![] scalar_over_nodes (constant (F := Ideal) Scalar0 .f32 0x00000000#32))

/-- The row spread over the rows reads, at (n, k), the row's entry k. -/
theorem row_spread_apply (b : FVec Ideal Row .f32) (n : Fin 100000) (k : Fin 64) (u : Fin 1) :
    broadcastInDim Nodes ![0, 1] row_over_nodes b (ix2 n k) = b (ix2 u k) := by
  refine broadcastInDim_apply ![0, 1] row_over_nodes b (ix2 n k) (ix2 u k) fun ax => ?_
  match ax with
  | ⟨0, _⟩ =>
    show u.val = if (1 : ℕ) = 1 then 0 else n.val
    rw [if_pos rfl]; omega
  | ⟨1, _⟩ =>
    show k.val = if (64 : ℕ) = 1 then 0 else k.val
    rw [if_neg (by decide)]

/-- Entry (n, k) of `shift g b` is g(n, k) + b(0, k). -/
theorem shift_apply (g : FVec Ideal Nodes .f32) (b : FVec Ideal Row .f32) (n : Fin 100000) (k : Fin 64) (u : Fin 1) :
    shift g b (ix2 n k) = g (ix2 n k) + b (ix2 u k) := by
  show g (ix2 n k) + broadcastInDim Nodes ![0, 1] row_over_nodes b (ix2 n k) = _
  rw [row_spread_apply b n k u]

/-- Entry (n, k) of `shiftRectify g b` is max (g(n, k) + b(0, k)) 0, the zero being the float word of 0.0. -/
theorem shiftRectify_apply (g : FVec Ideal Nodes .f32) (b : FVec Ideal Row .f32) (n : Fin 100000) (k : Fin 64) (u : Fin 1) :
    shiftRectify g b (ix2 n k) = max (g (ix2 n k) + b (ix2 u k)) (Ideal.ofBits .f32 0x00000000#32) := by
  show max (shift g b (ix2 n k)) _ = _
  rw [shift_apply g b n k u]
  rfl

end Cert.Dense

end
-- ==== Proof.TilePayloads.lean ====
/-
  What one grid point of each of the four kernels stores, entry by entry, at the ideal values.

  Every kernel works on a tile of 10000 consecutive rows of an [N, 64] array of node features, N = 100000, with the
  small operands — a [64, 64] weight matrix, one or two bias rows [1, 64] — whole. Say the tile's row r is row n of the
  array. Then at (r, e):
    • the first kernel stores Σ_k x(n, k) · W(k, e): row n of the product of the whole array with the weights;
    • the second and third store row n of the product of `shiftRectify g b` with the weights, g the array and b the row;
    • the last stores row n of `shiftRectify g b` itself into its first output, and row n of that times the weights,
      plus the second bias row, into its second.
  Rounding a tile or the weights to a narrower float format, and widening back, change nothing at the ideal values, and
  a matrix product of a tile of rows into a zero accumulator is the matching rows of the product of all rows. The tile
  and the small operands are given by what they read, so that the statements apply to blocks fetched through a window.
-/
import proofs.«150815_j19430432047388_2_alg».proof.Proof.Gen.KernelIdeal.Skeleton
import proofs.«150815_j19430432047388_2_alg».proof.Proof.LibRowTiles
import proofs.«150815_j19430432047388_2_alg».proof.Proof.LibRowBroadcast
import proofs.«150815_j19430432047388_2_alg».proof.Proof.WholeArrays

noncomputable section

namespace Cert.KernelIdeal.Tiles

open Idealize.ShloMosaic Idealize.ShloMosaic.ValueIdx Cert.KernelIdeal Cert.KernelIdeal.Gen Cert.Dense

/-- A tile with a bias row added to each of its rows, then the positive part: what the last three kernels compute first. -/
def rectTile (x0 : FVec Ideal S10000x64 .f32) (xb : FVec Ideal S1x64 .f32) : FVec Ideal S10000x64 .f32 :=
  maximumf (addf (shapeCast S10000x64 x0 shapeCasts_S10000x64_S10000x64)
      (broadcastTo S10000x64 (shapeCast S1x64 xb shapeCasts_S1x64_S1x64) broadcasts_S1x64_S10000x64))
    (broadcast S10000x64 (Scalar.ofBits (F := Ideal) .f32 0x00000000#32))

/-- Entry (r, k) of that tile is entry (n, k) of `shiftRectify g b` when the tile's row r reads row n of g and the row reads b. -/
theorem rectTile_apply (g : FVec Ideal Nodes .f32) (b : FVec Ideal Row .f32)
    (x0 : FVec Ideal S10000x64 .f32) (xb : FVec Ideal S1x64 .f32) (r : Fin 10000) (n : Fin 100000) (k : Fin 64)
    (hx0 : x0 (ix2 r k) = g (ix2 n k)) (hxb : xb (ix2 (0 : Fin 1) k) = b (ix2 (0 : Fin 1) k)) :
    rectTile x0 xb (ix2 r k) = shiftRectify g b (ix2 n k) := by
  rw [shiftRectify_apply g b n k 0]
  show max (shapeCast S10000x64 x0 shapeCasts_S10000x64_S10000x64 (ix2 r k)
      + broadcastTo S10000x64 (shapeCast S1x64 xb shapeCasts_S1x64_S1x64) broadcasts_S1x64_S10000x64 (ix2 r k)) _ = _
  rw [shapeCast_self, Cert.LibRowBroadcast.broadcastTo_1b_ab_apply _ _ r k 0, shapeCast_self, hx0, hxb]
  rfl

/-- The first kernel's stored value. -/
theorem pay0_apply (a : FVec Ideal Nodes .f32) (w : FVec Ideal Weights .f32)
    (x0 : FVec Ideal S10000x64 .f32) (x1 : FVec Ideal S64x64 .f32) (r : Fin 10000) (e : Fin 64) (n : Fin 100000)
    (hx0 : ∀ k : Fin 64, x0 (ix2 r k) = a (ix2 n k)) (hx1 : ∀ k : Fin 64, x1 (ix2 k e) = w (ix2 k e)) :
    k0_pay1 (F := Ideal) x0 x1 (ix2 r e) = product a w (ix2 n e) :=
  Cert.LibRowTiles.tile_product_eq 100000 64 64 10000 none none .single a w
    (truncf .bf16 x0 bitsLt_bf16_f32) (truncf .bf16 x1 bitsLt_bf16_f32) r e n hx0 hx1

/-- The second kernel's stored value. -/
theorem pay1_apply (g : FVec Ideal Nodes .f32) (b : FVec Ideal Row .f32) (w : FVec Ideal Weights .f32)
    (x0 : FVec Ideal S10000x64 .f32) (xb : FVec Ideal S1x64 .f32) (xw : FVec Ideal S64x64 .f32)
    (r : Fin 10000) (e : Fin 64) (n : Fin 100000)
    (hx0 : ∀ k : Fin 64, x0 (ix2 r k) = g (ix2 n k)) (hxb : ∀ k : Fin 64, xb (ix2 (0 : Fin 1) k) = b (ix2 (0 : Fin 1) k))
    (hxw : ∀ k : Fin 64, xw (ix2 k e) = w (ix2 k e)) :
    k1_pay1 (F := Ideal) x0 xb xw (ix2 r e) = product (shiftRectify g b) w (ix2 n e) :=
  Cert.LibRowTiles.tile_product_eq 100000 64 64 10000 none none .single (shiftRectify g b) w
    (truncf .bf16 (rectTile x0 xb) bitsLt_bf16_f32) (truncf .bf16 xw bitsLt_bf16_f32) r e n
    (fun k => rectTile_apply g b x0 xb r n k (hx0 k) (hxb k)) hxw

/-- The third kernel's stored value: the same function as the second's. -/
theorem pay2_apply (g : FVec Ideal Nodes .f32) (b : FVec Ideal Row .f32) (w : FVec Ideal Weights .f32)
    (x0 : FVec Ideal S10000x64 .f32) (xb : FVec Ideal S1x64 .f32) (xw : FVec Ideal S64x64 .f32)
    (r : Fin 10000) (e : Fin 64) (n : Fin 100000)
    (hx0 : ∀ k : Fin 64, x0 (ix2 r k) = g (ix2 n k)) (hxb : ∀ k : Fin 64, xb (ix2 (0 : Fin 1) k) = b (ix2 (0 : Fin 1) k))
    (hxw : ∀ k : Fin 64, xw (ix2 k e) = w (ix2 k e)) :
    k2_pay1 (F := Ideal) x0 xb xw (ix2 r e) = product (shiftRectify g b) w (ix2 n e) :=
  Cert.LibRowTiles.tile_product_eq 100000 64 64 10000 none none .single (shiftRectify g b) w
    (truncf .bf16 (rectTile x0 xb) bitsLt_bf16_f32) (truncf .bf16 xw bitsLt_bf16_f32) r e n
    (fun k => rectTile_apply g b x0 xb r n k (hx0 k) (hxb k)) hxw

/-- The last kernel's first stored value. -/
theorem pay3_out_apply (g : FVec Ideal Nodes .f32) (b : FVec Ideal Row .f32)
    (x0 : FVec Ideal S10000x64 .f32) (xb : FVec Ideal S1x64 .f32) (r : Fin 10000) (k : Fin 64) (n : Fin 100000)
    (hx0 : x0 (ix2 r k) = g (ix2 n k)) (hxb : xb (ix2 (0 : Fin 1) k) = b (ix2 (0 : Fin 1) k)) :
    k3_pay1 (F := Ideal) x0 xb (ix2 r k) = shiftRectify g b (ix2 n k) :=
  rectTile_apply g b x0 xb r n k hx0 hxb

/-- The last kernel's second stored value. -/
theorem pay3_res_apply (g : FVec Ideal Nodes .f32) (b : FVec Ideal Row .f32) (w : FVec Ideal Weights .f32) (b' : FVec Ideal Row .f32)
    (x0 : FVec Ideal S10000x64 .f32) (xb : FVec Ideal S1x64 .f32) (xw : FVec Ideal S64x64 .f32) (xb' : FVec Ideal S1x64 .f32)
    (r : Fin 10000) (e : Fin 64) (n : Fin 100000)
    (hx0 : ∀ k : Fin 64, x0 (ix2 r k) = g (ix2 n k)) (hxb : ∀ k : Fin 64, xb (ix2 (0 : Fin 1) k) = b (ix2 (0 : Fin 1) k))
    (hxw : ∀ k : Fin 64, xw (ix2 k e) = w (ix2 k e)) (hxb' : xb' (ix2 (0 : Fin 1) e) = b' (ix2 (0 : Fin 1) e)) :
    k3_pay2 (F := Ideal) x0 xb xw xb' (ix2 r e) = shift (product (shiftRectify g b) w) b' (ix2 n e) := by
  rw [shift_apply _ b' n e 0]
  show FloatOps.matmul dot_S10000x64_S64x64_S10000x64_1_0_0_1_n_n none (truncf .bf16 (k3_pay1 (F := Ideal) x0 xb) bitsLt_bf16_f32)
        (truncf .bf16 xw bitsLt_bf16_f32) (constant S10000x64 .f32 0x00000000#32) (ix2 r e)
      + broadcastTo S10000x64 (shapeCast S1x64 xb' shapeCasts_S1x64_S1x64) broadcasts_S1x64_S10000x64 (ix2 r e) = _
  rw [Cert.LibRowBroadcast.broadcastTo_1b_ab_apply _ _ r e 0, shapeCast_self, hxb']
  exact congrArg (· + b' (ix2 (0 : Fin 1) e))
    (Cert.LibRowTiles.tile_product_eq 100000 64 64 10000 none none .single (shiftRectify g b) w
      (truncf .bf16 (rectTile x0 xb) bitsLt_bf16_f32) (truncf .bf16 xw bitsLt_bf16_f32) r e n
      (fun k => rectTile_apply g b x0 xb r n k (hx0 k) (hxb k)) hxw)

end Cert.KernelIdeal.Tiles

end
-- ==== Proof.Arrays0.lean ====
/-
  The first kernel's output array, whatever the buffers hold when its region is entered.

  The grid has ten points. Point t fetches the tile of rows 10000·t … 10000·t + 9999 of the node features and the whole
  weight matrix, and writes back that tile of their product. Row n lies in the tile of point n / 10000, so the ten
  tiles cover the output array, and the array ends holding the product of the whole arrays.
-/
import proofs.«150815_j19430432047388_2_alg».proof.Proof.Gen.KernelIdeal.Frame
import proofs.«150815_j19430432047388_2_alg».proof.Proof.TilePayloads

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.Dense
open Idealize.ShloMosaic.Pipeline (Dat Cfg Window)

variable (V : (c : Dev nD) → (b : Ref sig .tc) → Buf (Elt Ideal) ((c : Thread nD τ).loc b))

/-- The whole-buffer rectangle starts at the origin. -/
theorem origin : (![0, 0] : Fin 2 → Nat) = fun _ => 0 := funext fun a => by fin_cases a <;> rfl

/-- The index maps over the grid: the feature tile moves with the output tile along the rows, the weights stay put. -/
theorem maps0 : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row tiles is some point's. -/
theorem onto0 : ∀ q : Fin 10, ∃ t : Fin cfg0.N, win0_2.index t = ![q.val, 0] :=
  (by decide +kernel : ∀ q : Fin 10, ∃ t : Fin grid0.N, win0_2.index t = ![q.val, 0])

/-- What point t writes back is tile t of the product of the whole arrays. -/
theorem flushed0 (c : Dev nD) (t : Fin cfg0.N) :
    (dat0 V c).flushed 2 t = ((cfg0.win 2).blk t).view.read (Elt Ideal) (product (φ := .f32) (ψ := .f32) (V c main_arg0) (V c main_arg3)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  obtain ⟨e0, e1, e2, e3, e4, e5⟩ := maps0 t
  funext j
  obtain ⟨r, e, rfl⟩ : ∃ (r : Fin 10000) (e : Fin 64), j = ix2 r e := ⟨j 0, j 1, eq_ix2 j⟩
  have hn : win0_2.index t (0 : Fin 2) * 10000 + r.val < 100000 := by have := r.isLt; omega
  show k0_pay1 (iblk0 V c 0 t) (iblk0 V c 1 t) (ix2 r e)
    = product (φ := .f32) (ψ := .f32) (V c main_arg0) (V c main_arg3) (((cfg0.win 2).blk t).view.emb (ix2 r e))
  have hemb : ((cfg0.win 2).blk t).view.emb (ix2 r e) = ix2 ⟨win0_2.index t (0 : Fin 2) * 10000 + r.val, hn⟩ e := by
    funext a; apply Fin.ext
    match a with
    | ⟨0, _⟩ => show win0_2.index t (0 : Fin 2) * 10000 + 1 * r.val = win0_2.index t (0 : Fin 2) * 10000 + r.val; omega
    | ⟨1, _⟩ => show win0_2.index t (1 : Fin 2) * 64 + 1 * e.val = e.val; omega
  rw [hemb]
  refine Tiles.pay0_apply (V c main_arg0) (V c main_arg3) (iblk0 V c 0 t) (iblk0 V c 1 t) r e ⟨_, hn⟩ (fun k => ?_) (fun k => ?_)
  · show V c main_arg0 (((cfg0.win 0).blk t).view.emb (ix2 r k)) = _
    refine congrArg (V c main_arg0) ?_
    funext a; apply Fin.ext
    match a with
    | ⟨0, _⟩ => show win0_0.index t (0 : Fin 2) * 10000 + 1 * r.val = win0_2.index t (0 : Fin 2) * 10000 + r.val; omega
    | ⟨1, _⟩ => show win0_0.index t (1 : Fin 2) * 64 + 1 * k.val = k.val; omega
  · show V c main_arg3 (((cfg0.win 1).blk t).view.emb (ix2 k e)) = _
    refine congrArg (V c main_arg3) ?_
    funext a; apply Fin.ext
    match a with
    | ⟨0, _⟩ => show win0_1.index t (0 : Fin 2) * 64 + 1 * k.val = k.val; omega
    | ⟨1, _⟩ => show win0_1.index t (1 : Fin 2) * 64 + 1 * e.val = e.val; omega

/-- An index of the array is in point t's tile iff each coordinate is in the tile's range on its axis. -/
theorem mem_tile0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- Every index of the array lies in the tile of a point that writes back: row n in the tile of point n / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_tile0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the product of the node features with the weights, as the region found them. -/
theorem array0 (c : Dev nD) : (dat0 V c).arrAt 2 cfg0.N = product (φ := .f32) (ψ := .f32) (V c main_arg0) (V c main_arg3) :=
  (dat0 V c).arrAt_eq_of_cover 2 _ (fun t _ => flushed0 V c t) cover0

end Cert.KernelIdeal.Arrays

end
-- ==== Proof.Arrays1.lean ====
/-
  The second kernel's output array, whatever the buffers hold when its region is entered.

  The grid has ten points. Point t fetches the tile of rows 10000·t … 10000·t + 9999 of the aggregated node features,
  the whole bias row and the whole weight matrix; it adds the row to every row of the tile, takes the positive part, and
  writes back the product of that with the weights. Row n lies in the tile of point n / 10000, so the ten tiles cover
  the output array, and the array ends holding `product (shiftRectify g b) w` of the whole arrays.
-/
import proofs.«150815_j19430432047388_2_alg».proof.Proof.Gen.KernelIdeal.Frame
import proofs.«150815_j19430432047388_2_alg».proof.Proof.TilePayloads

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.Dense
open Idealize.ShloMosaic.Pipeline (Dat Cfg Window)

variable (V : (c : Dev nD) → (b : Ref sig .tc) → Buf (Elt Ideal) ((c : Thread nD τ).loc b))

/-- The whole-buffer rectangle starts at the origin. -/
theorem origin1 : (![0, 0] : Fin 2 → Nat) = fun _ => 0 := funext fun a => by fin_cases a <;> rfl

/-- The index maps over the grid: the feature tile moves with the output tile along the rows; the bias row and the
    weights stay put. -/
theorem maps1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row tiles is some point's. -/
theorem onto1 : ∀ q : Fin 10, ∃ t : Fin cfg1.N, win1_3.index t = ![q.val, 0] :=
  (by decide +kernel : ∀ q : Fin 10, ∃ t : Fin grid1.N, win1_3.index t = ![q.val, 0])

/-- What point t writes back is tile t of `product (shiftRectify g b) w` of the whole arrays. -/
theorem flushed1 (c : Dev nD) (t : Fin cfg1.N) :
    (dat1 V c).flushed 3 t = ((cfg1.win 3).blk t).view.read (Elt Ideal)
      (product (φ := .f32) (ψ := .f32) (shiftRectify (V c main_v44) (V c main_v45)) (V c main_arg5)) := by
  show (cfg1.win 3).cut (grid1.coords t) ((dat1 V c).after 3 t) = _
  rw [after1_3]
  unfold out1_3
  rw [View.canon_unit_zero origin1]
  simp only [View.ld_unit_zero (S := S10000x64) origin1, View.ld_unit_zero (S := S1x64) origin1,
    View.ld_unit_zero (S := S64x64) origin1]
  obtain ⟨e0, e1, e2, e3, e4, e5, e6, e7⟩ := maps1 t
  funext j
  obtain ⟨r, e, rfl⟩ : ∃ (r : Fin 10000) (e : Fin 64), j = ix2 r e := ⟨j 0, j 1, eq_ix2 j⟩
  have hn : win1_3.index t (0 : Fin 2) * 10000 + r.val < 100000 := by have := r.isLt; omega
  show k1_pay1 (iblk1 V c 0 t) (iblk1 V c 1 t) (iblk1 V c 2 t) (ix2 r e)
    = product (φ := .f32) (ψ := .f32) (shiftRectify (V c main_v44) (V c main_v45)) (V c main_arg5)
        (((cfg1.win 3).blk t).view.emb (ix2 r e))
  have hemb : ((cfg1.win 3).blk t).view.emb (ix2 r e) = ix2 ⟨win1_3.index t (0 : Fin 2) * 10000 + r.val, hn⟩ e := by
    funext a; apply Fin.ext
    match a with
    | ⟨0, _⟩ => show win1_3.index t (0 : Fin 2) * 10000 + 1 * r.val = win1_3.index t (0 : Fin 2) * 10000 + r.val; omega
    | ⟨1, _⟩ => show win1_3.index t (1 : Fin 2) * 64 + 1 * e.val = e.val; omega
  rw [hemb]
  refine Tiles.pay1_apply (V c main_v44) (V c main_v45) (V c main_arg5) (iblk1 V c 0 t) (iblk1 V c 1 t) (iblk1 V c 2 t)
    r e ⟨_, hn⟩ (fun k => ?_) (fun k => ?_) (fun k => ?_)
  · show V c main_v44 (((cfg1.win 0).blk t).view.emb (ix2 r k)) = _
    refine congrArg (V c main_v44) ?_
    funext a; apply Fin.ext
    match a with
    | ⟨0, _⟩ => show win1_0.index t (0 : Fin 2) * 10000 + 1 * r.val = win1_3.index t (0 : Fin 2) * 10000 + r.val; omega
    | ⟨1, _⟩ => show win1_0.index t (1 : Fin 2) * 64 + 1 * k.val = k.val; omega
  · show V c main_v45 (((cfg1.win 1).blk t).view.emb (ix2 (0 : Fin 1) k)) = _
    refine congrArg (V c main_v45) ?_
    funext a; apply Fin.ext
    match a with
    | ⟨0, _⟩ => show win1_1.index t (0 : Fin 2) * 1 + 1 * 0 = 0; omega
    | ⟨1, _⟩ => show win1_1.index t (1 : Fin 2) * 64 + 1 * k.val = k.val; omega
  · show V c main_arg5 (((cfg1.win 2).blk t).view.emb (ix2 k e)) = _
    refine congrArg (V c main_arg5) ?_
    funext a; apply Fin.ext
    match a with
    | ⟨0, _⟩ => show win1_2.index t (0 : Fin 2) * 64 + 1 * k.val = k.val; omega
    | ⟨1, _⟩ => show win1_2.index t (1 : Fin 2) * 64 + 1 * e.val = e.val; omega

/-- An index of the array is in point t's tile iff each coordinate is in the tile's range on its axis. -/
theorem mem_tile1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v46).slice (win1_3.rect t)).set ↔ _
  rw [View.set_slice_whole, Rect.mem_set_unit]
  exact Iff.rfl

/-- Every index of the array lies in the tile of a point that writes back: row n in the tile of point n / 10000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_tile1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the region, from the arrays as the region found them. -/
theorem array1 (c : Dev nD) : (dat1 V c).arrAt 3 cfg1.N
    = product (φ := .f32) (ψ := .f32) (shiftRectify (V c main_v44) (V c main_v45)) (V c main_arg5) :=
  (dat1 V c).arrAt_eq_of_cover 3 _ (fun t _ => flushed1 V c t) cover1

end Cert.KernelIdeal.Arrays

end
-- ==== Proof.Arrays2.lean ====
/-
  The third kernel's output array, whatever the buffers hold when its region is entered.

  The grid has ten points. Point t fetches the tile of rows 10000·t … 10000·t + 9999 of the aggregated node features,
  the whole bias row and the whole weight matrix; it adds the row to every row of the tile, takes the positive part, and
  writes back the product of that with the weights. Row n lies in the tile of point n / 10000, so the ten tiles cover
  the output array, and the array ends holding `product (shiftRectify g b) w` of the whole arrays.
-/
import proofs.«150815_j19430432047388_2_alg».proof.Proof.Gen.KernelIdeal.Frame
import proofs.«150815_j19430432047388_2_alg».proof.Proof.TilePayloads

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.Dense
open Idealize.ShloMosaic.Pipeline (Dat Cfg Window)

variable (V : (c : Dev nD) → (b : Ref sig .tc) → Buf (Elt Ideal) ((c : Thread nD τ).loc b))

/-- The whole-buffer rectangle starts at the origin. -/
theorem origin2 : (![0, 0] : Fin 2 → Nat) = fun _ => 0 := funext fun a => by fin_cases a <;> rfl

/-- The index maps over the grid: the feature tile moves with the output tile along the rows; the bias row and the
    weights stay put. -/
theorem maps2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every one of the ten row tiles is some point's. -/
theorem onto2 : ∀ q : Fin 10, ∃ t : Fin cfg2.N, win2_3.index t = ![q.val, 0] :=
  (by decide +kernel : ∀ q : Fin 10, ∃ t : Fin grid2.N, win2_3.index t = ![q.val, 0])

/-- What point t writes back is tile t of `product (shiftRectify g b) w` of the whole arrays. -/
theorem flushed2 (c : Dev nD) (t : Fin cfg2.N) :
    (dat2 V c).flushed 3 t = ((cfg2.win 3).blk t).view.read (Elt Ideal)
      (product (φ := .f32) (ψ := .f32) (shiftRectify (V c main_v59) (V c main_v60)) (V c main_arg7)) := by
  show (cfg2.win 3).cut (grid2.coords t) ((dat2 V c).after 3 t) = _
  rw [after2_3]
  unfold out2_3
  rw [View.canon_unit_zero origin2]
  simp only [View.ld_unit_zero (S := S10000x64) origin2, View.ld_unit_zero (S := S1x64) origin2,
    View.ld_unit_zero (S := S64x64) origin2]
  obtain ⟨e0, e1, e2, e3, e4, e5, e6, e7⟩ := maps2 t
  funext j
  obtain ⟨r, e, rfl⟩ : ∃ (r : Fin 10000) (e : Fin 64), j = ix2 r e := ⟨j 0, j 1, eq_ix2 j⟩
  have hn : win2_3.index t (0 : Fin 2) * 10000 + r.val < 100000 := by have := r.isLt; omega
  show k2_pay1 (iblk2 V c 0 t) (iblk2 V c 1 t) (iblk2 V c 2 t) (ix2 r e)
    = product (φ := .f32) (ψ := .f32) (shiftRectify (V c main_v59) (V c main_v60)) (V c main_arg7)
        (((cfg2.win 3).blk t).view.emb (ix2 r e))
  have hemb : ((cfg2.win 3).blk t).view.emb (ix2 r e) = ix2 ⟨win2_3.index t (0 : Fin 2) * 10000 + r.val, hn⟩ e := by
    funext a; apply Fin.ext
    match a with
    | ⟨0, _⟩ => show win2_3.index t (0 : Fin 2) * 10000 + 1 * r.val = win2_3.index t (0 : Fin 2) * 10000 + r.val; omega
    | ⟨1, _⟩ => show win2_3.index t (1 : Fin 2) * 64 + 1 * e.val = e.val; omega
  rw [hemb]
  refine Tiles.pay2_apply (V c main_v59) (V c main_v60) (V c main_arg7) (iblk2 V c 0 t) (iblk2 V c 1 t) (iblk2 V c 2 t)
    r e ⟨_, hn⟩ (fun k => ?_) (fun k => ?_) (fun k => ?_)
  · show V c main_v59 (((cfg2.win 0).blk t).view.emb (ix2 r k)) = _
    refine congrArg (V c main_v59) ?_
    funext a; apply Fin.ext
    match a with
    | ⟨0, _⟩ => show win2_0.index t (0 : Fin 2) * 10000 + 1 * r.val = win2_3.index t (0 : Fin 2) * 10000 + r.val; omega
    | ⟨1, _⟩ => show win2_0.index t (1 : Fin 2) * 64 + 1 * k.val = k.val; omega
  · show V c main_v60 (((cfg2.win 1).blk t).view.emb (ix2 (0 : Fin 1) k)) = _
    refine congrArg (V c main_v60) ?_
    funext a; apply Fin.ext
    match a with
    | ⟨0, _⟩ => show win2_1.index t (0 : Fin 2) * 1 + 1 * 0 = 0; omega
    | ⟨1, _⟩ => show win2_1.index t (1 : Fin 2) * 64 + 1 * k.val = k.val; omega
  · show V c main_arg7 (((cfg2.win 2).blk t).view.emb (ix2 k e)) = _
    refine congrArg (V c main_arg7) ?_
    funext a; apply Fin.ext
    match a with
    | ⟨0, _⟩ => show win2_2.index t (0 : Fin 2) * 64 + 1 * k.val = k.val; omega
    | ⟨1, _⟩ => show win2_2.index t (1 : Fin 2) * 64 + 1 * e.val = e.val; omega

/-- An index of the array is in point t's tile iff each coordinate is in the tile's range on its axis. -/
theorem mem_tile2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v61).slice (win2_3.rect t)).set ↔ _
  rw [View.set_slice_whole, Rect.mem_set_unit]
  exact Iff.rfl

/-- Every index of the array lies in the tile of a point that writes back: row n in the tile of point n / 10000. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_tile2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after the region, from the arrays as the region found them. -/
theorem array2 (c : Dev nD) : (dat2 V c).arrAt 3 cfg2.N
    = product (φ := .f32) (ψ := .f32) (shiftRectify (V c main_v59) (V c main_v60)) (V c main_arg7) :=
  (dat2 V c).arrAt_eq_of_cover 3 _ (fun t _ => flushed2 V c t) cover2

end Cert.KernelIdeal.Arrays

end
-- ==== Proof.Arrays3.lean ====
/-
  The last kernel's two output arrays, whatever the buffers hold when its region is entered.

  The grid has ten points. Point t fetches the tile of rows 10000·t … 10000·t + 9999 of the aggregated node features,
  two bias rows and the weight matrix, all whole but the tile. It adds the first row to every row of the tile and takes
  the positive part: that is written back to the first output. The product of that with the weights, plus the second
  row, is written back to the second output. Row n lies in the tile of point n / 10000, so for each output the ten
  tiles cover the array: the first ends holding `shiftRectify g b`, the second `shift (product (shiftRectify g b) w) b'`,
  of the whole arrays.
-/
import proofs.«150815_j19430432047388_2_alg».proof.Proof.Gen.KernelIdeal.Frame
import proofs.«150815_j19430432047388_2_alg».proof.Proof.TilePayloads

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.Dense
open Idealize.ShloMosaic.Pipeline (Dat Cfg Window)

variable (V : (c : Dev nD) → (b : Ref sig .tc) → Buf (Elt Ideal) ((c : Thread nD τ).loc b))

/-- The whole-buffer rectangle starts at the origin. -/
theorem origin3 : (![0, 0] : Fin 2 → Nat) = fun _ => 0 := funext fun a => by fin_cases a <;> rfl

/-- The index maps over the grid: the feature tile and both output tiles move together along the rows; the bias rows
    and the weights stay put. -/
theorem maps3 : ∀ t : Fin cfg3.N, win3_0.index t (0 : Fin 2) = win3_4.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9
    ∧ win3_5.index t (0 : Fin 2) = win3_4.index t (0 : Fin 2) ∧ win3_5.index t (1 : Fin 2) = 0 :=
  (by decide +kernel : ∀ t : Fin grid3.N, _)

/-- Every one of the ten row tiles of the first output is some point's. -/
theorem onto3_4 : ∀ q : Fin 10, ∃ t : Fin cfg3.N, win3_4.index t = ![q.val, 0] :=
  (by decide +kernel : ∀ q : Fin 10, ∃ t : Fin grid3.N, win3_4.index t = ![q.val, 0])
/-- And of the second output. -/
theorem onto3_5 : ∀ q : Fin 10, ∃ t : Fin cfg3.N, win3_5.index t = ![q.val, 0] :=
  (by decide +kernel : ∀ q : Fin 10, ∃ t : Fin grid3.N, win3_5.index t = ![q.val, 0])

/-- What point t writes back to the first output is tile t of `shiftRectify g b` of the whole arrays. -/
theorem flushed3_4 (c : Dev nD) (t : Fin cfg3.N) :
    (dat3 V c).flushed 4 t = ((cfg3.win 4).blk t).view.read (Elt Ideal) (shiftRectify (V c main_v74) (V c main_v75)) := by
  show (cfg3.win 4).cut (grid3.coords t) ((dat3 V c).after 4 t) = _
  rw [after3_4]
  unfold out3_4
  rw [View.canon_unit_zero origin3]
  simp only [View.ld_unit_zero (S := S10000x64) origin3, View.ld_unit_zero (S := S1x64) origin3]
  obtain ⟨e0, e1, e2, e3, e4, e5, e6, e7, e8, e9, e10, e11⟩ := maps3 t
  funext j
  obtain ⟨r, e, rfl⟩ : ∃ (r : Fin 10000) (e : Fin 64), j = ix2 r e := ⟨j 0, j 1, eq_ix2 j⟩
  have hn : win3_4.index t (0 : Fin 2) * 10000 + r.val < 100000 := by have := r.isLt; omega
  have hemb : ((cfg3.win 4).blk t).view.emb (ix2 r e) = ix2 ⟨win3_4.index t (0 : Fin 2) * 10000 + r.val, hn⟩ e := by
    funext a; apply Fin.ext
    match a with
    | ⟨0, _⟩ => show win3_4.index t (0 : Fin 2) * 10000 + 1 * r.val = win3_4.index t (0 : Fin 2) * 10000 + r.val; omega
    | ⟨1, _⟩ => show win3_4.index t (1 : Fin 2) * 64 + 1 * e.val = e.val; omega
  show k3_pay1 (iblk3 V c 0 t) (iblk3 V c 1 t) (ix2 r e)
    = shiftRectify (V c main_v74) (V c main_v75) (((cfg3.win 4).blk t).view.emb (ix2 r e))
  rw [hemb]
  refine Tiles.pay3_out_apply (V c main_v74) (V c main_v75) (iblk3 V c 0 t) (iblk3 V c 1 t) r e ⟨_, hn⟩ ?_ ?_
  · show V c main_v74 (((cfg3.win 0).blk t).view.emb (ix2 r e)) = _
    refine congrArg (V c main_v74) ?_
    funext a; apply Fin.ext
    match a with
    | ⟨0, _⟩ => show win3_0.index t (0 : Fin 2) * 10000 + 1 * r.val = win3_4.index t (0 : Fin 2) * 10000 + r.val; omega
    | ⟨1, _⟩ => show win3_0.index t (1 : Fin 2) * 64 + 1 * e.val = e.val; omega
  · show V c main_v75 (((cfg3.win 1).blk t).view.emb (ix2 (0 : Fin 1) e)) = _
    refine congrArg (V c main_v75) ?_
    funext a; apply Fin.ext
    match a with
    | ⟨0, _⟩ => show win3_1.index t (0 : Fin 2) * 1 + 1 * 0 = 0; omega
    | ⟨1, _⟩ => show win3_1.index t (1 : Fin 2) * 64 + 1 * e.val = e.val; omega

/-- What point t writes back to the second output is tile t of `shift (product (shiftRectify g b) w) b'` of the whole arrays. -/
theorem flushed3_5 (c : Dev nD) (t : Fin cfg3.N) :
    (dat3 V c).flushed 5 t = ((cfg3.win 5).blk t).view.read (Elt Ideal)
      (shift (product (φ := .f32) (ψ := .f32) (shiftRectify (V c main_v74) (V c main_v75)) (V c main_arg9)) (V c main_v76)) := by
  show (cfg3.win 5).cut (grid3.coords t) ((dat3 V c).after 5 t) = _
  rw [after3_5]
  unfold out3_5
  rw [View.canon_unit_zero origin3]
  simp only [View.ld_unit_zero (S := S10000x64) origin3, View.ld_unit_zero (S := S1x64) origin3,
    View.ld_unit_zero (S := S64x64) origin3]
  obtain ⟨e0, e1, e2, e3, e4, e5, e6, e7, e8, e9, e10, e11⟩ := maps3 t
  funext j
  obtain ⟨r, e, rfl⟩ : ∃ (r : Fin 10000) (e : Fin 64), j = ix2 r e := ⟨j 0, j 1, eq_ix2 j⟩
  have hn : win3_5.index t (0 : Fin 2) * 10000 + r.val < 100000 := by have := r.isLt; omega
  have hemb : ((cfg3.win 5).blk t).view.emb (ix2 r e) = ix2 ⟨win3_5.index t (0 : Fin 2) * 10000 + r.val, hn⟩ e := by
    funext a; apply Fin.ext
    match a with
    | ⟨0, _⟩ => show win3_5.index t (0 : Fin 2) * 10000 + 1 * r.val = win3_5.index t (0 : Fin 2) * 10000 + r.val; omega
    | ⟨1, _⟩ => show win3_5.index t (1 : Fin 2) * 64 + 1 * e.val = e.val; omega
  show k3_pay2 (iblk3 V c 0 t) (iblk3 V c 1 t) (iblk3 V c 2 t) (iblk3 V c 3 t) (ix2 r e)
    = shift (product (φ := .f32) (ψ := .f32) (shiftRectify (V c main_v74) (V c main_v75)) (V c main_arg9)) (V c main_v76)
        (((cfg3.win 5).blk t).view.emb (ix2 r e))
  rw [hemb]
  refine Tiles.pay3_res_apply (V c main_v74) (V c main_v75) (V c main_arg9) (V c main_v76)
    (iblk3 V c 0 t) (iblk3 V c 1 t) (iblk3 V c 2 t) (iblk3 V c 3 t) r e ⟨_, hn⟩ (fun k => ?_) (fun k => ?_) (fun k => ?_) ?_
  · show V c main_v74 (((cfg3.win 0).blk t).view.emb (ix2 r k)) = _
    refine congrArg (V c main_v74) ?_
    funext a; apply Fin.ext
    match a with
    | ⟨0, _⟩ => show win3_0.index t (0 : Fin 2) * 10000 + 1 * r.val = win3_5.index t (0 : Fin 2) * 10000 + r.val; omega
    | ⟨1, _⟩ => show win3_0.index t (1 : Fin 2) * 64 + 1 * k.val = k.val; omega
  · show V c main_v75 (((cfg3.win 1).blk t).view.emb (ix2 (0 : Fin 1) k)) = _
    refine congrArg (V c main_v75) ?_
    funext a; apply Fin.ext
    match a with
    | ⟨0, _⟩ => show win3_1.index t (0 : Fin 2) * 1 + 1 * 0 = 0; omega
    | ⟨1, _⟩ => show win3_1.index t (1 : Fin 2) * 64 + 1 * k.val = k.val; omega
  · show V c main_arg9 (((cfg3.win 2).blk t).view.emb (ix2 k e)) = _
    refine congrArg (V c main_arg9) ?_
    funext a; apply Fin.ext
    match a with
    | ⟨0, _⟩ => show win3_2.index t (0 : Fin 2) * 64 + 1 * k.val = k.val; omega
    | ⟨1, _⟩ => show win3_2.index t (1 : Fin 2) * 64 + 1 * e.val = e.val; omega
  · show V c main_v76 (((cfg3.win 3).blk t).view.emb (ix2 (0 : Fin 1) e)) = _
    refine congrArg (V c main_v76) ?_
    funext a; apply Fin.ext
    match a with
    | ⟨0, _⟩ => show win3_3.index t (0 : Fin 2) * 1 + 1 * 0 = 0; omega
    | ⟨1, _⟩ => show win3_3.index t (1 : Fin 2) * 64 + 1 * e.val = e.val; omega

/-- An index of the array is in point t's tile of output 4 iff each coordinate is in the tile's range on its axis. -/
theorem mem_tile3_4 (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v77_0).slice (win3_4.rect t)).set ↔ _
  rw [View.set_slice_whole, Rect.mem_set_unit]
  exact Iff.rfl

/-- Every index of output 4's array lies in the tile of a point that writes back: row n in the tile of point n / 10000. -/
theorem cover3_4 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := onto3_4 ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_tile3_4]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 64 ≤ (i 1).val ∧ (i 1).val < win3_4.index t (1 : Fin 2) * 64 + 64; omega

/-- An index of the array is in point t's tile of output 5 iff each coordinate is in the tile's range on its axis. -/
theorem mem_tile3_5 (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v77_1).slice (win3_5.rect t)).set ↔ _
  rw [View.set_slice_whole, Rect.mem_set_unit]
  exact Iff.rfl

/-- Every index of output 5's array lies in the tile of a point that writes back: row n in the tile of point n / 10000. -/
theorem cover3_5 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := onto3_5 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_tile3_5]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The first output array after the region, from the arrays as the region found them. -/
theorem array3_4 (c : Dev nD) : (dat3 V c).arrAt 4 cfg3.N = shiftRectify (V c main_v74) (V c main_v75) :=
  (dat3 V c).arrAt_eq_of_cover 4 _ (fun t _ => flushed3_4 V c t) cover3_4

/-- The second output array after the region. -/
theorem array3_5 (c : Dev nD) : (dat3 V c).arrAt 5 cfg3.N
    = shift (product (φ := .f32) (ψ := .f32) (shiftRectify (V c main_v74) (V c main_v75)) (V c main_arg9)) (V c main_v76) :=
  (dat3 V c).arrAt_eq_of_cover 5 _ (fun t _ => flushed3_5 V c t) cover3_5

end Cert.KernelIdeal.Arrays

end
-- ==== Proof.LibRegionAsOp.lean ====
/-
  A kernel region read as host operations.

  When a region ends, its pipeline's arrays hold what the write-backs left and every other buffer holds what it held
  when the region was entered (`Pipeline.withArrays`). If all of the arrays but one end as they were entered — the
  region's inputs — and the remaining one ends at the value that some operation would write there from the entry
  contents, then the contents at the exit are that operation's result on the entry contents. With two outputs they are
  the results of two operations, one after the other. A program of regions among stretches of host operations is then
  ONE fold of operations over the launch contents, and what a buffer holds at the end is read off that fold like a
  host program's. For any signature and any type of values.
-/
import Idealize.ShloMosaic.Lib.Pipeline.FrameSuffix
import Idealize.ShloMosaic.Lib.StableHlo.Run

namespace Idealize.ShloMosaic.Pipeline

open Idealize.ShloMosaic.TcCoe

variable {nD : Nat} {τ : Topo} {sig : RefSig} {Val : EltTy → Type}

/-- One output: the exit contents are one operation's result on the entry contents. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (y : Fin W) (op : HloOp τ sig Val) (hw : op.writes = {Proc.devRef .tc (arrRef win y)})
    (hkeep : ∀ w, w ≠ y → A w = V (Proc.devRef .tc (arrRef win w)))
    (hres : op.result V (Proc.devRef .tc (arrRef win y)) = A y) :
    withArrays win c V A = op.result V := by
  funext b
  by_cases h : ∃ w, Proc.devRef .tc (arrRef win w) = b
  · obtain ⟨w, rfl⟩ := h
    rw [withArrays_arr win hinj c V A w]
    by_cases hwy : w = y
    · subst hwy; exact hres.symm
    · rw [hkeep w hwy, HloOp.result_of_not_mem]
      rw [hw, Finset.mem_singleton]
      exact fun e => hwy (hinj (Proc.devRef_injective _ e))
  · have hb : b ∉ op.writes := by rw [hw, Finset.mem_singleton]; exact fun e => h ⟨y, e.symm⟩
    rw [HloOp.result_of_not_mem _ _ hb]
    unfold withArrays
    rw [dif_neg h]

/-- Two outputs: the exit contents are two operations' results, one after the other, on the entry contents. -/
theorem withArrays_eq_result₂ {gr W : Nat} (win : Fin W → WinSpec sig gr) (hinj : Function.Injective (arrRef win))
    (c : Dev nD) (V : Valuation τ sig Val) (A : (w : Fin W) → Buf Val ((win w).arr.view.loc (c.tc : Thread nD τ)))
    (y₁ y₂ : Fin W) (hne : y₁ ≠ y₂) (op₁ op₂ : HloOp τ sig Val)
    (hw₁ : op₁.writes = {Proc.devRef .tc (arrRef win y₁)}) (hw₂ : op₂.writes = {Proc.devRef .tc (arrRef win y₂)})
    (hkeep : ∀ w, w ≠ y₁ → w ≠ y₂ → A w = V (Proc.devRef .tc (arrRef win w)))
    (hres₁ : op₁.result V (Proc.devRef .tc (arrRef win y₁)) = A y₁)
    (hres₂ : op₂.result (op₁.result V) (Proc.devRef .tc (arrRef win y₂)) = A y₂) :
    withArrays win c V A = op₂.result (op₁.result V) := by
  funext b
  by_cases h : ∃ w, Proc.devRef .tc (arrRef win w) = b
  · obtain ⟨w, rfl⟩ := h
    rw [withArrays_arr win hinj c V A w]
    by_cases h₂ : w = y₂
    · subst h₂; exact hres₂.symm
    · have n₂ : Proc.devRef (τ := τ) .tc (arrRef win w) ∉ op₂.writes := by
        rw [hw₂, Finset.mem_singleton]; exact fun e => h₂ (hinj (Proc.devRef_injective _ e))
      rw [HloOp.result_of_not_mem _ _ n₂]
      by_cases h₁ : w = y₁
      · subst h₁; exact hres₁.symm
      · rw [hkeep w h₁ h₂, HloOp.result_of_not_mem]
        rw [hw₁, Finset.mem_singleton]
        exact fun e => h₁ (hinj (Proc.devRef_injective _ e))
  · have n₂ : b ∉ op₂.writes := by rw [hw₂, Finset.mem_singleton]; exact fun e => h ⟨y₂, e.symm⟩
    have n₁ : b ∉ op₁.writes := by rw [hw₁, Finset.mem_singleton]; exact fun e => h ⟨y₁, e.symm⟩
    rw [HloOp.result_of_not_mem _ _ n₂, HloOp.result_of_not_mem _ _ n₁]
    unfold withArrays
    rw [dif_neg h]

end Idealize.ShloMosaic.Pipeline
-- ==== Proof.Fold.lean ====
/-
  The kernel program as one fold of operations over the launch contents.

  Each of the four regions leaves its input arrays as it found them and its output array at a function of the arrays it
  found (the four array theorems): the first the product of the node features with a weight matrix; the second and the
  third `product (shiftRectify g b) w` of the aggregated features g, a bias row b and a weight matrix w; the last
  `shiftRectify g b` in one output and `shift (product (shiftRectify g b) w) b'` in the other. So a region acts on
  the buffers as ONE operation that writes that function of its operands to the output buffer (two operations for the
  last region), and the buffers at the end of the program are a fold of operations — the host's own, in their stretches,
  and these — over the contents at launch.
-/
import proofs.«150815_j19430432047388_2_alg».proof.Proof.Gen.KernelIdeal.Frame
import proofs.«150815_j19430432047388_2_alg».proof.Proof.Arrays0
import proofs.«150815_j19430432047388_2_alg».proof.Proof.Arrays1
import proofs.«150815_j19430432047388_2_alg».proof.Proof.Arrays2
import proofs.«150815_j19430432047388_2_alg».proof.Proof.Arrays3
import proofs.«150815_j19430432047388_2_alg».proof.Proof.LibRegionAsOp

noncomputable section

namespace Cert.KernelIdeal.Fold

open Idealize.ShloMosaic Idealize.ShloMosaic.TcCoe Idealize.SL.Sem Idealize.ShloMosaic.StableHlo
open Cert.KernelIdeal Cert.KernelIdeal.Gen Cert.Dense

variable (m : (ℓ : Loc nD τ sig) → Buf (Elt Ideal) ℓ) (ρ : Dev nD → PrngReg)

/-- The first region as an operation: the product of the node features with the first weight matrix. -/
def step0 : HloOp τ sig (Elt Ideal) :=
  binary main_arg0 main_arg3 main_v31
    ((fun x w => product (φ := .f32) (ψ := .f32) x w) : (⟨S100000x64, .f32⟩ : BufTy).Contents (Elt Ideal)
      → (⟨S64x64, .f32⟩ : BufTy).Contents (Elt Ideal) → (⟨S100000x64, .bf16⟩ : BufTy).Contents (Elt Ideal))

/-- The second region as an operation. -/
def step1 : HloOp τ sig (Elt Ideal) :=
  ternary main_v44 main_v45 main_arg5 main_v46
    ((fun g b w => product (φ := .f32) (ψ := .f32) (shiftRectify g b) w) : (⟨S100000x64, .f32⟩ : BufTy).Contents (Elt Ideal)
      → (⟨S1x64, .f32⟩ : BufTy).Contents (Elt Ideal) → (⟨S64x64, .f32⟩ : BufTy).Contents (Elt Ideal)
      → (⟨S100000x64, .bf16⟩ : BufTy).Contents (Elt Ideal))

/-- The third region as an operation. -/
def step2 : HloOp τ sig (Elt Ideal) :=
  ternary main_v59 main_v60 main_arg7 main_v61
    ((fun g b w => product (φ := .f32) (ψ := .f32) (shiftRectify g b) w) : (⟨S100000x64, .f32⟩ : BufTy).Contents (Elt Ideal)
      → (⟨S1x64, .f32⟩ : BufTy).Contents (Elt Ideal) → (⟨S64x64, .f32⟩ : BufTy).Contents (Elt Ideal)
      → (⟨S100000x64, .bf16⟩ : BufTy).Contents (Elt Ideal))

/-- The last region's first output as an operation. -/
def step3a : HloOp τ sig (Elt Ideal) :=
  binary main_v74 main_v75 main_v77_0
    ((fun g b => shiftRectify g b) : (⟨S100000x64, .f32⟩ : BufTy).Contents (Elt Ideal)
      → (⟨S1x64, .f32⟩ : BufTy).Contents (Elt Ideal) → (⟨S100000x64, .f32⟩ : BufTy).Contents (Elt Ideal))

/-- The last region's second output as an operation. -/
def step3b : HloOp τ sig (Elt Ideal) :=
  quaternary main_v74 main_v75 main_arg9 main_v76 main_v77_1
    ((fun g b w b' => shift (product (φ := .f32) (ψ := .f32) (shiftRectify g b) w) b') : (⟨S100000x64, .f32⟩ : BufTy).Contents (Elt Ideal)
      → (⟨S1x64, .f32⟩ : BufTy).Contents (Elt Ideal) → (⟨S64x64, .f32⟩ : BufTy).Contents (Elt Ideal)
      → (⟨S1x64, .f32⟩ : BufTy).Contents (Elt Ideal) → (⟨S100000x64, .f32⟩ : BufTy).Contents (Elt Ideal))

/-- The buffers when the first region is left are its operation's result on the buffers when it was entered. -/
theorem exit0 (c : Dev nD) : W4 m ρ c = step0.result (W3 m ρ c) := by
  unfold W4
  refine Pipeline.withArrays_eq_result spec0 launch0.win.arr_inj c (W3 m ρ c) _ 2 step0 rfl (fun w hw => ?_) ?_
  · match w, hw with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, h => exact absurd rfl h
  · exact (binary_result main_arg0 main_arg3 main_v31 _ _ _ _ (W3 m ρ c)).trans (Arrays.array0 (V3 m ρ) c).symm

/-- The same for the second region. -/
theorem exit1 (c : Dev nD) : W6 m ρ c = step1.result (W5 m ρ c) := by
  unfold W6
  refine Pipeline.withArrays_eq_result spec1 launch1.win.arr_inj c (W5 m ρ c) _ 3 step1 rfl (fun w hw => ?_) ?_
  · match w, hw with
    | ⟨0, _⟩, _ => exact ((dat1 (V5 m ρ) c).arrAt_in 0 rfl _).trans (A_eq1 (V5 m ρ) c 0)
    | ⟨1, _⟩, _ => exact ((dat1 (V5 m ρ) c).arrAt_in 1 rfl _).trans (A_eq1 (V5 m ρ) c 1)
    | ⟨2, _⟩, _ => exact ((dat1 (V5 m ρ) c).arrAt_in 2 rfl _).trans (A_eq1 (V5 m ρ) c 2)
    | ⟨3, _⟩, h => exact absurd rfl h
  · exact (ternary_result main_v44 main_v45 main_arg5 main_v46 _ _ _ _ _ (W5 m ρ c)).trans (Arrays.array1 (V5 m ρ) c).symm

/-- The same for the third region. -/
theorem exit2 (c : Dev nD) : W8 m ρ c = step2.result (W7 m ρ c) := by
  unfold W8
  refine Pipeline.withArrays_eq_result spec2 launch2.win.arr_inj c (W7 m ρ c) _ 3 step2 rfl (fun w hw => ?_) ?_
  · match w, hw with
    | ⟨0, _⟩, _ => exact ((dat2 (V7 m ρ) c).arrAt_in 0 rfl _).trans (A_eq2 (V7 m ρ) c 0)
    | ⟨1, _⟩, _ => exact ((dat2 (V7 m ρ) c).arrAt_in 1 rfl _).trans (A_eq2 (V7 m ρ) c 1)
    | ⟨2, _⟩, _ => exact ((dat2 (V7 m ρ) c).arrAt_in 2 rfl _).trans (A_eq2 (V7 m ρ) c 2)
    | ⟨3, _⟩, h => exact absurd rfl h
  · exact (ternary_result main_v59 main_v60 main_arg7 main_v61 _ _ _ _ _ (W7 m ρ c)).trans (Arrays.array2 (V7 m ρ) c).symm

set_option maxHeartbeats 4000000 in
/-- The last region: two operations, one per output; the second reads operands the first does not write. -/
theorem exit3 (c : Dev nD) : W10 m ρ c = step3b.result (step3a.result (W9 m ρ c)) := by
  unfold W10
  refine Pipeline.withArrays_eq_result₂ spec3 launch3.win.arr_inj c (W9 m ρ c) _ 4 5 (by decide) step3a step3b rfl rfl
    (fun w h4 h5 => ?_) ?_ ?_
  · match w, h4, h5 with
    | ⟨0, _⟩, _, _ => exact ((dat3 (V9 m ρ) c).arrAt_in 0 rfl _).trans (A_eq3 (V9 m ρ) c 0)
    | ⟨1, _⟩, _, _ => exact ((dat3 (V9 m ρ) c).arrAt_in 1 rfl _).trans (A_eq3 (V9 m ρ) c 1)
    | ⟨2, _⟩, _, _ => exact ((dat3 (V9 m ρ) c).arrAt_in 2 rfl _).trans (A_eq3 (V9 m ρ) c 2)
    | ⟨3, _⟩, _, _ => exact ((dat3 (V9 m ρ) c).arrAt_in 3 rfl _).trans (A_eq3 (V9 m ρ) c 3)
    | ⟨4, _⟩, h, _ => exact absurd rfl h
    | ⟨5, _⟩, _, h => exact absurd rfl h
  · show step3a.result (W9 m ρ c) (Proc.devRef .tc main_v77_0) = (dat3 (V9 m ρ) c).arrAt 4 cfg3.N
    unfold step3a
    rw [binary_result, Arrays.array3_4 (V9 m ρ) c]
  · show step3b.result (step3a.result (W9 m ρ c)) (Proc.devRef .tc main_v77_1) = (dat3 (V9 m ρ) c).arrAt 5 cfg3.N
    refine (quaternary_result main_v74 main_v75 main_arg9 main_v76 main_v77_1 _ _ _ _ _ _ (step3a.result (W9 m ρ c))).trans ?_
    unfold step3a
    rw [binary_result_ne (h := (by decide : main_v74 ≠ main_v77_0)), binary_result_ne (h := (by decide : main_v75 ≠ main_v77_0)),
      binary_result_ne (h := (by decide : main_arg9 ≠ main_v77_0)), binary_result_ne (h := (by decide : main_v76 ≠ main_v77_0))]
    exact (Arrays.array3_5 (V9 m ρ) c).symm

/-- The buffers at the end of the program: the regions' operations and the host's stretches folded over the buffers
    when the first region is entered (themselves the host's first stretches folded over the launch contents). -/
theorem fold (c : Dev nD) : W10 m ρ c
    = step3b.result (step3a.result (after hostOps3 (step2.result (after hostOps2 (step1.result (after hostOps1
        (step0.result (W3 m ρ c)))))))) := by
  rw [exit3 m ρ c]
  show step3b.result (step3a.result (after hostOps3 (W8 m ρ c))) = _
  rw [exit2 m ρ c]
  show step3b.result (step3a.result (after hostOps3 (step2.result (after hostOps2 (W6 m ρ c))))) = _
  rw [exit1 m ρ c]
  show step3b.result (step3a.result (after hostOps3 (step2.result (after hostOps2 (step1.result (after hostOps1 (W4 m ρ c))))))) = _
  rw [exit0 m ρ c]

end Cert.KernelIdeal.Fold

end
-- ==== Proof.Network.lean ====
/-
  The network both programs compute, as one function of the argument arrays, at the ideal values.

  A graph on N = 100000 nodes is given by 800000 directed edges, a [2, 800000] array of node numbers: row 0 the sources,
  row 1 the targets. Every node also sends a message to itself, so there are 900000 messages: `sources` and `targets`
  list their end points, the edges first and then every node once. A negative node number counts from the end
  (`wrapped` adds N to it), as array indexing does. The `degree` of a node is the number of messages it receives;
  `invRoot` is degree^(-1/2) where the degree is positive and 0 elsewhere; a message's `weight` is the product of
  `invRoot` at its two end points. One propagation step, `propagate h`, sends every node's row of h along every
  message, scaled by the message's weight, and adds up what each node receives. A layer multiplies the node features by
  a weight matrix, propagates, adds a bias row to every row and takes the positive part (`Cert.Dense.shiftRectify`);
  `threeLayers` is three layers, and `readout` multiplies `threeLayers` by a last weight matrix and adds a last bias row.
  Every step is spelt with the operation a host program runs for it, in the order the reference program runs them.
-/
import proofs.«150815_j19430432047388_2_alg».proof.Proof.Gen.ReferenceIdeal
import proofs.«150815_j19430432047388_2_alg».proof.Proof.WholeArrays

noncomputable section

namespace Cert.Network

open Idealize.ShloMosaic Cert.ReferenceIdeal Cert.ReferenceIdeal.Gen Cert.Dense

/-- The source node of every message: the edges' sources, then every node once. -/
def sources (e : IVec S2x800000 32) : IVec S900000 32 :=
  concatenate S900000 0 [⟨S800000, (shapeCast _ (extractStridedSlice S1x800000 ![0, 0] e slices_S2x800000_S1x800000_0_0) shapeCasts_S1x800000_S800000)⟩, ⟨S100000, (iotaInDim S100000 32 0)⟩] concatenates_S800000_S100000_S900000_d0

/-- The target node of every message: the edges' targets, then every node once. -/
def targets (e : IVec S2x800000 32) : IVec S900000 32 :=
  concatenate S900000 0 [⟨S800000, (shapeCast _ (extractStridedSlice S1x800000 ![1, 0] e slices_S2x800000_S1x800000_1_0) shapeCasts_S1x800000_S800000)⟩, ⟨S100000, (iotaInDim S100000 32 0)⟩] concatenates_S800000_S100000_S900000_d0

/-- Node numbers as a column of row indices, a negative one counted from the end. -/
def wrapped (r : IVec S900000 32) : IVec S900000x1 32 :=
  broadcastInDim S900000x1 ![0] bcast_S900000_S900000x1_0 (select (cmpi .slt r (broadcastInDim S900000 ![] bcast_S_S900000 (constantI S_ 32 0#32))) (addi r (broadcastInDim S900000 ![] bcast_S_S900000 (constantI S_ 32 100000#32))) r)

/-- How many messages each node receives. -/
def degree (e : IVec S2x800000 32) : FVec Ideal S100000 .f32 :=
  Host.scatterAdd scatter_S100000_S900000x1_S900000_n_0_0_1 (broadcastInDim S100000 ![] bcast_S_S100000 (constant S_ .f32 0x00000000#32)) (broadcastInDim S900000x1 ![0] bcast_S900000_S900000x1_0 (targets e)) (broadcastInDim S900000 ![] bcast_S_S900000 (constant S_ .f32 0x3F800000#32))

/-- degree^(-1/2) where the degree is positive, 0 elsewhere. -/
def invRoot (e : IVec S2x800000 32) : FVec Ideal S100000 .f32 :=
  select (cmpf (F := Ideal) .ogt (degree e) (broadcastInDim S100000 ![] bcast_S_S100000 (constant S_ .f32 0x00000000#32))) (Host.rsqrt (degree e)) (broadcastInDim S100000 ![] bcast_S_S100000 (id (constant S_ .f32 0x00000000#32)))

/-- A message's weight: `invRoot` at its source times `invRoot` at its target. -/
def weight (e : IVec S2x800000 32) : FVec Ideal S900000 .f32 :=
  mulf (Host.gather gather_S100000_S900000x1_S900000_n_0_n_n_0_1_1 (invRoot e) (wrapped (sources e))) (Host.gather gather_S100000_S900000x1_S900000_n_0_n_n_0_1_1 (invRoot e) (wrapped (targets e)))

/-- The messages' weights as a column, one row per message. -/
def weightColumn (e : IVec S2x800000 32) : FVec Ideal S900000x1 .f32 :=
  broadcastInDim S900000x1 ![0] bcast_S900000_S900000x1_0 (weight e)

/-- One propagation step: every node's row of h along every message, scaled by the message's weight, summed at the
    message's target. -/
def propagate (e : IVec S2x800000 32) (h : FVec Ideal S100000x64 .f32) : FVec Ideal S100000x64 .f32 :=
  Host.scatterAdd scatter_S100000x64_S900000x1_S900000x64_1_0_0_1 (broadcastInDim S100000x64 ![] bcast_S_S100000x64 (constant S_ .f32 0x00000000#32)) (broadcastInDim S900000x1 ![0] bcast_S900000_S900000x1_0 (targets e)) (mulf (Host.gather gather_S100000x64_S900000x1_S900000x64_1_0_n_n_0_1_164 h (wrapped (sources e))) (broadcastInDim S900000x64 ![0, 1] bcast_S900000x1_S900000x64_0_1 (weightColumn e)))

/-- A bias as a row. -/
def biasRow (b : FVec Ideal S64 .f32) : FVec Ideal S1x64 .f32 := broadcastInDim S1x64 ![1] bcast_S64_S1x64_1 b

/-- One layer on node features h: weights, propagation, bias, positive part. -/
def layer (e : IVec S2x800000 32) (h : FVec Ideal S100000x64 .f32) (W : FVec Ideal S64x64 .f32) (b : FVec Ideal S64 .f32) :
    FVec Ideal S100000x64 .f32 :=
  shiftRectify (propagate e (product h W)) (biasRow b)

/-- Three layers. -/
def threeLayers (e : IVec S2x800000 32) (x : FVec Ideal S100000x64 .f32) (W0 : FVec Ideal S64x64 .f32) (b0 : FVec Ideal S64 .f32)
    (W1 : FVec Ideal S64x64 .f32) (b1 : FVec Ideal S64 .f32) (W2 : FVec Ideal S64x64 .f32) (b2 : FVec Ideal S64 .f32) :
    FVec Ideal S100000x64 .f32 :=
  layer e (layer e (layer e x W0 b0) W1 b1) W2 b2

/-- The last linear map, of the node features after the three layers. -/
def readout (e : IVec S2x800000 32) (x : FVec Ideal S100000x64 .f32) (W0 : FVec Ideal S64x64 .f32) (b0 : FVec Ideal S64 .f32)
    (W1 : FVec Ideal S64x64 .f32) (b1 : FVec Ideal S64 .f32) (W2 : FVec Ideal S64x64 .f32) (b2 : FVec Ideal S64 .f32)
    (Wl : FVec Ideal S64x64 .f32) (bl : FVec Ideal S64 .f32) : FVec Ideal S100000x64 .f32 :=
  shift (product (threeLayers e x W0 b0 W1 b1 W2 b2) Wl) (biasRow bl)

end Cert.Network

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibReshapeBroadcast.lean ====
/-
  Two spellings of the same re-layout.

  A vector of a entries made a column [a, 1] holds entry p at (p, 0), whether it is written as a reshape or as a
  broadcast along axis 0; a vector of b entries made a row [1, b] holds entry e at (0, e), whether written as a reshape
  or as a broadcast along axis 1. The two programs differ in exactly these spellings for the column of self-loop
  weights and for the bias rows. Both statements are for any extent and any element type.
-/
import Idealize.ShloMosaic.Lib.ValueIdx
import Idealize.ShloMosaic.Lib.Pipeline.Value
import Idealize.ShloMosaic.Lib.ValueLayout
import proofs.«150815_j19430432047388_2_alg».proof.Proof.LibKeepdims

noncomputable section

namespace Cert.GraphNet

open Idealize.ShloMosaic Idealize.ShloMosaic.ValueIdx

/-- A vector reshaped to a column is the vector broadcast along axis 0 into the column shape. -/
theorem column_reshape_eq_broadcast {a : ℕ} {α : Type} (y : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ y h = broadcastInDim ⟨2, ![a, 1]⟩ ![0] h' y := by
  funext j
  obtain ⟨p, u, rfl⟩ : ∃ (p : Fin a) (u : Fin 1), j = ix2 p u := ⟨j 0, j 1, eq_ix2 j⟩
  rw [Cert.LibKeepdims.shapeCast_a_a1_apply y h p u]
  refine (broadcastInDim_apply ![0] h' y (ix2 p u) (ix1 p) fun d => ?_).symm
  match d with
  | ⟨0, _⟩ =>
    show p.val = if a = 1 then 0 else p.val
    split
    · have := p.isLt; omega
    · rfl

/-- A vector reshaped to a row is the vector broadcast along axis 1 into the row shape. -/
theorem row_reshape_eq_broadcast {b : ℕ} {α : Type} (y : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ y h = broadcastInDim ⟨2, ![1, b]⟩ ![1] h' y := by
  funext j
  obtain ⟨u, e, rfl⟩ : ∃ (u : Fin 1) (e : Fin b), j = ix2 u e := ⟨j 0, j 1, eq_ix2 j⟩
  have hu : u.val = 0 := by omega
  rw [shapeCast_apply y h (ix2 u e) (ix1 e) (by
    rw [Shape.rowMajor_val_one, Shape.rowMajor_val_two]
    show e.val = u.val * b + e.val
    rw [hu, Nat.zero_mul, Nat.zero_add])]
  refine (broadcastInDim_apply ![1] h' y (ix2 u e) (ix1 e) fun d => ?_).symm
  match d with
  | ⟨0, _⟩ =>
    show e.val = if b = 1 then 0 else e.val
    split
    · have := e.isLt; omega
    · rfl

end Cert.GraphNet

end
-- ==== Proof.HostStretches.lean ====
/-
  The kernel program's host stretches and regions, one at a time, over any buffer contents.

  Between two regions the host runs the same few operations every time: wrap the message sources, gather the rows of the
  features the last region left, widen them, scale each by its message's weight, and add them up at the message
  targets — one propagation step `Cert.Network.propagate` — and reshape the next bias (two biases before the last region)
  to a row. Each region then acts as one operation (two for the last region) on what the stretch left. The message end
  points, the column of weights and the argument arrays are written once, before the first region, and by nothing
  later: the "kept" buffers. Everything here is stated for ANY contents `V` of the buffers, so each statement involves
  one stretch or one region and nothing of what came before.
-/
import proofs.«150815_j19430432047388_2_alg».proof.Proof.Fold
import proofs.«150815_j19430432047388_2_alg».proof.Proof.Network
import proofs.«150815_j19430432047388_2_alg».proof.Proof.LibReshapeBroadcast

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen Cert.KernelIdeal.Fold Cert.Dense

/-! ## The same operations under the two programs' names -/

/-- Widening an array kept in the narrower float format changes nothing at the ideal values. -/
theorem widen_id {s : Shape} (x : FVec Ideal s .bf16) (h : FTy.bf16.bits < FTy.f32.bits) : extf .f32 x h = x := rfl

/-- The two programs' dimension records for the scatter-add of the degrees are one record. -/
theorem same_scatter1 : Cert.KernelIdeal.scatter_S100000_S900000x1_S900000_n_0_0_1
    = Cert.ReferenceIdeal.scatter_S100000_S900000x1_S900000_n_0_0_1 := rfl
/-- … for the gather of the inverse roots. -/
theorem same_gather1 : Cert.KernelIdeal.gather_S100000_S900000x1_S900000_n_0_n_n_0_1_1
    = Cert.ReferenceIdeal.gather_S100000_S900000x1_S900000_n_0_n_n_0_1_1 := rfl
/-- … for the gather of the node features' rows. -/
theorem same_gather2 : Cert.KernelIdeal.gather_S100000x64_S900000x1_S900000x64_1_0_n_n_0_1_164
    = Cert.ReferenceIdeal.gather_S100000x64_S900000x1_S900000x64_1_0_n_n_0_1_164 := rfl
/-- … for the scatter-add of the messages. -/
theorem same_scatter2 : Cert.KernelIdeal.scatter_S100000x64_S900000x1_S900000x64_1_0_0_1
    = Cert.ReferenceIdeal.scatter_S100000x64_S900000x1_S900000x64_1_0_0_1 := rfl

/-- The first bias: the host's reshape of the vector to a row leaves, in the row's buffer, the bias broadcast into a row. -/
theorem reshape_v45 (he hn hx hy) (F : Valuation τ sig (Elt Ideal)) :
    (reshape (τ := τ) (Val := Elt Ideal) main_arg4 main_v45 he hn hx hy).result F (no_index (Proc.devRef .tc main_v45))
      = Cert.Network.biasRow (F (Proc.devRef .tc main_arg4)) :=
  (reshape_result main_arg4 main_v45 he hn hx hy F).trans
    (Cert.GraphNet.row_reshape_eq_broadcast (F (Proc.devRef .tc main_arg4)) shapeCasts_S64_S1x64 Cert.ReferenceIdeal.Gen.bcast_S64_S1x64_1)

/-- The second bias: the host's reshape of the vector to a row leaves, in the row's buffer, the bias broadcast into a row. -/
theorem reshape_v60 (he hn hx hy) (F : Valuation τ sig (Elt Ideal)) :
    (reshape (τ := τ) (Val := Elt Ideal) main_arg6 main_v60 he hn hx hy).result F (no_index (Proc.devRef .tc main_v60))
      = Cert.Network.biasRow (F (Proc.devRef .tc main_arg6)) :=
  (reshape_result main_arg6 main_v60 he hn hx hy F).trans
    (Cert.GraphNet.row_reshape_eq_broadcast (F (Proc.devRef .tc main_arg6)) shapeCasts_S64_S1x64 Cert.ReferenceIdeal.Gen.bcast_S64_S1x64_1)

/-- The third bias: the host's reshape of the vector to a row leaves, in the row's buffer, the bias broadcast into a row. -/
theorem reshape_v75 (he hn hx hy) (F : Valuation τ sig (Elt Ideal)) :
    (reshape (τ := τ) (Val := Elt Ideal) main_arg8 main_v75 he hn hx hy).result F (no_index (Proc.devRef .tc main_v75))
      = Cert.Network.biasRow (F (Proc.devRef .tc main_arg8)) :=
  (reshape_result main_arg8 main_v75 he hn hx hy F).trans
    (Cert.GraphNet.row_reshape_eq_broadcast (F (Proc.devRef .tc main_arg8)) shapeCasts_S64_S1x64 Cert.ReferenceIdeal.Gen.bcast_S64_S1x64_1)

/-- The last bias: the host's reshape of the vector to a row leaves, in the row's buffer, the bias broadcast into a row. -/
theorem reshape_v76 (he hn hx hy) (F : Valuation τ sig (Elt Ideal)) :
    (reshape (τ := τ) (Val := Elt Ideal) main_arg10 main_v76 he hn hx hy).result F (no_index (Proc.devRef .tc main_v76))
      = Cert.Network.biasRow (F (Proc.devRef .tc main_arg10)) :=
  (reshape_result main_arg10 main_v76 he hn hx hy F).trans
    (Cert.GraphNet.row_reshape_eq_broadcast (F (Proc.devRef .tc main_arg10)) shapeCasts_S64_S1x64 Cert.ReferenceIdeal.Gen.bcast_S64_S1x64_1)

/-! ## The kept buffers -/

/-- The buffers written before the first region and by nothing after it: the message sources and targets, the column
    of weights, and the argument arrays the later stages read. -/
def keptRefs : List (Ref sig .tc) :=
  [main_v3, main_v6, main_v30, main_arg0, main_arg1, main_arg3, main_arg4, main_arg5, main_arg6, main_arg7, main_arg8,
    main_arg9, main_arg10]

/-- `V'` holds what `V` holds at every kept buffer. -/
def Same (V V' : Valuation τ sig (Elt Ideal)) : Prop := ∀ b ∈ keptRefs, V' (Proc.devRef .tc b) = V (Proc.devRef .tc b)

theorem Same.trans {V V' V'' : Valuation τ sig (Elt Ideal)} (h : Same V V') (h' : Same V' V'') : Same V V'' :=
  fun b hb => (h' b hb).trans (h b hb)

/-- No region's operation writes a kept buffer. -/
theorem same_step0 (V : Valuation τ sig (Elt Ideal)) : Same V (step0.result V) := by
  intro b hb
  have hne : b ≠ main_v31 := by rintro rfl; revert hb; decide
  unfold step0; exact binary_result_ne _ _ _ _ _ _ _ V hne
theorem same_step1 (V : Valuation τ sig (Elt Ideal)) : Same V (step1.result V) := by
  intro b hb
  have hne : b ≠ main_v46 := by rintro rfl; revert hb; decide
  unfold step1; exact ternary_result_ne _ _ _ _ _ _ _ _ _ V hne
theorem same_step2 (V : Valuation τ sig (Elt Ideal)) : Same V (step2.result V) := by
  intro b hb
  have hne : b ≠ main_v61 := by rintro rfl; revert hb; decide
  unfold step2; exact ternary_result_ne _ _ _ _ _ _ _ _ _ V hne

/-- The stretch after region 0 writes none of the kept buffers. -/
theorem same_ops1 (V : Valuation τ sig (Elt Ideal)) : Same V (after hostOps1 V) := by
  intro b hb
  simp only [keptRefs, List.mem_cons, List.not_mem_nil, or_false] at hb
  rcases hb with rfl | rfl | rfl | rfl | rfl | rfl | rfl | rfl | rfl | rfl | rfl | rfl | rfl <;>
    (dsimp only [hostOps1]; after_results_simp)

/-- The stretch after region 1 writes none of the kept buffers. -/
theorem same_ops2 (V : Valuation τ sig (Elt Ideal)) : Same V (after hostOps2 V) := by
  intro b hb
  simp only [keptRefs, List.mem_cons, List.not_mem_nil, or_false] at hb
  rcases hb with rfl | rfl | rfl | rfl | rfl | rfl | rfl | rfl | rfl | rfl | rfl | rfl | rfl <;>
    (dsimp only [hostOps2]; after_results_simp)

/-- The stretch after region 2 writes none of the kept buffers. -/
theorem same_ops3 (V : Valuation τ sig (Elt Ideal)) : Same V (after hostOps3 V) := by
  intro b hb
  simp only [keptRefs, List.mem_cons, List.not_mem_nil, or_false] at hb
  rcases hb with rfl | rfl | rfl | rfl | rfl | rfl | rfl | rfl | rfl | rfl | rfl | rfl | rfl <;>
    (dsimp only [hostOps3]; after_results_simp)

/-! ## What each stretch leaves for the next region -/

/-- After the stretch that follows region 0: the aggregated-features buffer holds one propagation step of the features the
    region left, when the message end points and the weight column are where the first stretch put them. -/
theorem stretch1_agg (V : Valuation τ sig (Elt Ideal)) (e : IVec Cert.ReferenceIdeal.S2x800000 32)
    (hs : V (Proc.devRef .tc main_v3) = Cert.Network.sources e) (ht : V (Proc.devRef .tc main_v6) = Cert.Network.targets e)
    (hw : V (Proc.devRef .tc main_v30) = Cert.Network.weightColumn e) :
    after hostOps1 V (Proc.devRef .tc main_v44) = Cert.Network.propagate e (V (Proc.devRef .tc main_v31)) := by
  dsimp only [hostOps1]
  after_results_simp
  simp only [hs, ht, hw, widen_id, same_gather2, same_scatter2]
  unfold Cert.Network.propagate Cert.Network.wrapped
  rfl

/-- After the same stretch the row bias-row buffer holds the bias as a row. -/
theorem stretch1_row (V : Valuation τ sig (Elt Ideal)) :
    after hostOps1 V (Proc.devRef .tc main_v45) = Cert.Network.biasRow (V (Proc.devRef .tc main_arg4)) := by
  dsimp only [hostOps1]
  simp (disch := decide) only [after_cons, after_nil,
    reshape_v45, reshape_v60, reshape_v75, reshape_v76,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

/-- After the stretch that follows region 1: the aggregated-features buffer holds one propagation step of the features the
    region left, when the message end points and the weight column are where the first stretch put them. -/
theorem stretch2_agg (V : Valuation τ sig (Elt Ideal)) (e : IVec Cert.ReferenceIdeal.S2x800000 32)
    (hs : V (Proc.devRef .tc main_v3) = Cert.Network.sources e) (ht : V (Proc.devRef .tc main_v6) = Cert.Network.targets e)
    (hw : V (Proc.devRef .tc main_v30) = Cert.Network.weightColumn e) :
    after hostOps2 V (Proc.devRef .tc main_v59) = Cert.Network.propagate e (V (Proc.devRef .tc main_v46)) := by
  dsimp only [hostOps2]
  after_results_simp
  simp only [hs, ht, hw, widen_id, same_gather2, same_scatter2]
  unfold Cert.Network.propagate Cert.Network.wrapped
  rfl

/-- After the same stretch the row bias-row buffer holds the bias as a row. -/
theorem stretch2_row (V : Valuation τ sig (Elt Ideal)) :
    after hostOps2 V (Proc.devRef .tc main_v60) = Cert.Network.biasRow (V (Proc.devRef .tc main_arg6)) := by
  dsimp only [hostOps2]
  simp (disch := decide) only [after_cons, after_nil,
    reshape_v45, reshape_v60, reshape_v75, reshape_v76,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

/-- After the stretch that follows region 2: the aggregated-features buffer holds one propagation step of the features the
    region left, when the message end points and the weight column are where the first stretch put them. -/
theorem stretch3_agg (V : Valuation τ sig (Elt Ideal)) (e : IVec Cert.ReferenceIdeal.S2x800000 32)
    (hs : V (Proc.devRef .tc main_v3) = Cert.Network.sources e) (ht : V (Proc.devRef .tc main_v6) = Cert.Network.targets e)
    (hw : V (Proc.devRef .tc main_v30) = Cert.Network.weightColumn e) :
    after hostOps3 V (Proc.devRef .tc main_v74) = Cert.Network.propagate e (V (Proc.devRef .tc main_v61)) := by
  dsimp only [hostOps3]
  after_results_simp
  simp only [hs, ht, hw, widen_id, same_gather2, same_scatter2]
  unfold Cert.Network.propagate Cert.Network.wrapped
  rfl

/-- After the same stretch the row bias-row buffer holds the bias as a row. -/
theorem stretch3_row (V : Valuation τ sig (Elt Ideal)) :
    after hostOps3 V (Proc.devRef .tc main_v75) = Cert.Network.biasRow (V (Proc.devRef .tc main_arg8)) := by
  dsimp only [hostOps3]
  simp (disch := decide) only [after_cons, after_nil,
    reshape_v45, reshape_v60, reshape_v75, reshape_v76,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

/-- After the same stretch the lastRow bias-row buffer holds the bias as a row. -/
theorem stretch3_lastRow (V : Valuation τ sig (Elt Ideal)) :
    after hostOps3 V (Proc.devRef .tc main_v76) = Cert.Network.biasRow (V (Proc.devRef .tc main_arg10)) := by
  dsimp only [hostOps3]
  simp (disch := decide) only [after_cons, after_nil,
    reshape_v45, reshape_v60, reshape_v75, reshape_v76,
    nullary_result', unary_result', binary_result', ternary_result', quaternary_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']

/-! ## What each region's operation writes -/

/-- The first region's output: the product of its two operands. -/
theorem step0_out (V : Valuation τ sig (Elt Ideal)) : step0.result V (Proc.devRef .tc main_v31)
    = product (φ := .f32) (ψ := .f32) (V (Proc.devRef .tc main_arg0)) (V (Proc.devRef .tc main_arg3)) := by
  unfold step0; exact binary_result _ _ _ _ _ _ _ V

/-- The second region's output. -/
theorem step1_out (V : Valuation τ sig (Elt Ideal)) : step1.result V (Proc.devRef .tc main_v46)
    = product (φ := .f32) (ψ := .f32) (shiftRectify (V (Proc.devRef .tc main_v44)) (V (Proc.devRef .tc main_v45)))
        (V (Proc.devRef .tc main_arg5)) := by
  unfold step1; exact ternary_result _ _ _ _ _ _ _ _ _ V

/-- The third region's output. -/
theorem step2_out (V : Valuation τ sig (Elt Ideal)) : step2.result V (Proc.devRef .tc main_v61)
    = product (φ := .f32) (ψ := .f32) (shiftRectify (V (Proc.devRef .tc main_v59)) (V (Proc.devRef .tc main_v60)))
        (V (Proc.devRef .tc main_arg7)) := by
  unfold step2; exact ternary_result _ _ _ _ _ _ _ _ _ V

/-- The last region's first output. -/
theorem step3_first (V : Valuation τ sig (Elt Ideal)) : step3b.result (step3a.result V) (Proc.devRef .tc main_v77_0)
    = shiftRectify (V (Proc.devRef .tc main_v74)) (V (Proc.devRef .tc main_v75)) := by
  unfold step3b
  rw [quaternary_result_ne (h := (by decide : main_v77_0 ≠ main_v77_1))]
  unfold step3a; exact binary_result _ _ _ _ _ _ _ V

/-- The last region's second output; its operands are none of them the first output. -/
theorem step3_second (V : Valuation τ sig (Elt Ideal)) : step3b.result (step3a.result V) (Proc.devRef .tc main_v77_1)
    = shift (product (φ := .f32) (ψ := .f32) (shiftRectify (V (Proc.devRef .tc main_v74)) (V (Proc.devRef .tc main_v75)))
        (V (Proc.devRef .tc main_arg9))) (V (Proc.devRef .tc main_v76)) := by
  unfold step3b
  rw [quaternary_result]
  unfold step3a
  rw [binary_result_ne (h := (by decide : main_v74 ≠ main_v77_0)), binary_result_ne (h := (by decide : main_v75 ≠ main_v77_0)),
    binary_result_ne (h := (by decide : main_arg9 ≠ main_v77_0)), binary_result_ne (h := (by decide : main_v76 ≠ main_v77_0))]

end Cert.KernelIdeal.Stretches

end
-- ==== Proof.FirstStretches.lean ====
/-
  The host's stretches before the first region, one at a time, over any buffer contents.

  The first stretch turns the edge list into the message sources and targets, counts the degrees, and leaves the mask
  "degree > 0" and the reciprocal roots of the degrees. The outlined select then leaves the inverse roots: the
  reciprocal root where the mask holds, zero elsewhere. The third stretch wraps negative node numbers, gathers the
  inverse roots at both end points of every message, multiplies them, and keeps the product as a column: the column of
  weights. Each is stated for ANY contents `V` of the buffers it reads, so each involves one stretch only; the buffers
  a later stretch still needs — the end points and the arguments — are written by none of the later ones.
-/
import proofs.«150815_j19430432047388_2_alg».proof.Proof.HostStretches

set_option maxRecDepth 16384

noncomputable section

namespace Cert.KernelIdeal.Opening

open Idealize.ShloMosaic Idealize.ShloMosaic.TcCoe Idealize.SL.Sem Idealize.ShloMosaic.StableHlo
open Cert.KernelIdeal Cert.KernelIdeal.Gen Cert.KernelIdeal.Stretches Cert.Dense

/-- A function of two arguments, applied: kept folded while a buffer's contents are read back, so that both arguments
    stay in sight (an operation that lists its operands, a concatenation, would otherwise bury them in the list). -/
def apply2 {α β γ : Type} (f : α → β → γ) (a : α) (b : β) : γ := f a b

/-- After a two-operand operation its result buffer holds the operation's function of the operands' contents. -/
theorem binary_held {a b y : Ref sig .tc} (f : a.ty.Contents (Elt Ideal) → b.ty.Contents (Elt Ideal) → y.ty.Contents (Elt Ideal))
    (ha hb hy) (F : Valuation τ sig (Elt Ideal)) :
    (binary (τ := τ) a b y f ha hb hy).result F (no_index (Proc.devRef .tc y)) = apply2 f (F (Proc.devRef .tc a)) (F (Proc.devRef .tc b)) :=
  binary_result a b y f ha hb hy F

/-! ## The buffers the later stretches still read -/

/-- The message end points and the argument arrays. -/
def earlyRefs : List (Ref sig .tc) :=
  [main_v3, main_v6, main_arg0, main_arg1, main_arg3, main_arg4, main_arg5, main_arg6, main_arg7, main_arg8, main_arg9, main_arg10]

/-- `V'` holds what `V` holds at each of them. -/
def SameEarly (V V' : Valuation τ sig (Elt Ideal)) : Prop := ∀ b ∈ earlyRefs, V' (Proc.devRef .tc b) = V (Proc.devRef .tc b)

/-- The outlined select writes none of them. -/
theorem early_where (V : Valuation τ sig (Elt Ideal)) : SameEarly V (after hostOps0_1 V) := by
  intro b hb
  simp only [earlyRefs, List.mem_cons, List.not_mem_nil, or_false] at hb
  rcases hb with rfl | rfl | rfl | rfl | rfl | rfl | rfl | rfl | rfl | rfl | rfl | rfl <;>
    (dsimp only [hostOps0_1]; after_results_simp)

/-- Nor does the third stretch. -/
theorem early_tail (V : Valuation τ sig (Elt Ideal)) : SameEarly V (after hostOps0_2 V) := by
  intro b hb
  simp only [earlyRefs, List.mem_cons, List.not_mem_nil, or_false] at hb
  rcases hb with rfl | rfl | rfl | rfl | rfl | rfl | rfl | rfl | rfl | rfl | rfl | rfl <;>
    (dsimp only [hostOps0_2]; after_results_simp)

/-! ## The first stretch -/

/-- The message sources. -/
theorem head_sources (V : Valuation τ sig (Elt Ideal)) :
    after hostOps0 V (Proc.devRef .tc main_v3) = Cert.Network.sources (V (Proc.devRef .tc main_arg1)) := by
  dsimp only [hostOps0]
  simp (disch := decide) only [after_cons, after_nil,
    nullary_result', unary_result', binary_held, ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  dsimp only [apply2]
  unfold Cert.Network.sources
  rfl

/-- The message targets. -/
theorem head_targets (V : Valuation τ sig (Elt Ideal)) :
    after hostOps0 V (Proc.devRef .tc main_v6) = Cert.Network.targets (V (Proc.devRef .tc main_arg1)) := by
  dsimp only [hostOps0]
  simp (disch := decide) only [after_cons, after_nil,
    nullary_result', unary_result', binary_held, ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  dsimp only [apply2]
  unfold Cert.Network.targets
  rfl

/-- The degrees. -/
theorem head_degree (V : Valuation τ sig (Elt Ideal)) :
    after hostOps0 V (Proc.devRef .tc main_v10) = Cert.Network.degree (V (Proc.devRef .tc main_arg1)) := by
  dsimp only [hostOps0]
  simp (disch := decide) only [after_cons, after_nil,
    nullary_result', unary_result', binary_held, ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  dsimp only [apply2]
  simp only [same_scatter1]
  unfold Cert.Network.degree Cert.Network.targets
  rfl

/-- The mask "degree > 0". -/
theorem head_mask (V : Valuation τ sig (Elt Ideal)) :
    after hostOps0 V (Proc.devRef .tc main_v12) = cmpf (F := Ideal) .ogt (Cert.Network.degree (V (Proc.devRef .tc main_arg1)))
      (broadcastInDim S100000 ![] bcast_S_S100000 (constant (F := Ideal) S_ .f32 0x00000000#32)) := by
  dsimp only [hostOps0]
  simp (disch := decide) only [after_cons, after_nil,
    nullary_result', unary_result', binary_held, ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  dsimp only [apply2]
  simp only [same_scatter1]
  unfold Cert.Network.degree Cert.Network.targets
  rfl

/-- The reciprocal roots of the degrees. -/
theorem head_roots (V : Valuation τ sig (Elt Ideal)) :
    after hostOps0 V (Proc.devRef .tc main_v13) = Host.rsqrt (F := Ideal) (φ := .f32) (Cert.Network.degree (V (Proc.devRef .tc main_arg1))) := by
  dsimp only [hostOps0]
  simp (disch := decide) only [after_cons, after_nil,
    nullary_result', unary_result', binary_held, ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  dsimp only [apply2]
  simp only [same_scatter1]
  unfold Cert.Network.degree Cert.Network.targets
  rfl

/-- The zero the select falls back to. -/
theorem head_zero (V : Valuation τ sig (Elt Ideal)) :
    after hostOps0 V (Proc.devRef .tc main_cst_2) = constant (F := Ideal) S_ .f32 0x00000000#32 := by
  dsimp only [hostOps0]
  after_results_simp

/-- The first stretch writes no argument. -/
theorem head_args (V : Valuation τ sig (Elt Ideal)) : ∀ b ∈ earlyRefs, b ≠ main_v3 → b ≠ main_v6 →
    after hostOps0 V (Proc.devRef .tc b) = V (Proc.devRef .tc b) := by
  intro b hb n3 n6
  simp only [earlyRefs, List.mem_cons, List.not_mem_nil, or_false] at hb
  rcases hb with rfl | rfl | rfl | rfl | rfl | rfl | rfl | rfl | rfl | rfl | rfl | rfl <;>
    first | exact absurd rfl n3 | exact absurd rfl n6 | (dsimp only [hostOps0]; after_results_simp)

/-! ## The outlined select -/

/-- The inverse roots, from the degrees' mask, their reciprocal roots and the zero. -/
theorem where_out (V : Valuation τ sig (Elt Ideal)) (e : IVec Cert.ReferenceIdeal.S2x800000 32)
    (hm : V (Proc.devRef .tc main_v12) = cmpf (F := Ideal) .ogt (Cert.Network.degree e)
      (broadcastInDim S100000 ![] bcast_S_S100000 (constant (F := Ideal) S_ .f32 0x00000000#32)))
    (hr : V (Proc.devRef .tc main_v13) = Host.rsqrt (F := Ideal) (φ := .f32) (Cert.Network.degree e))
    (hz : V (Proc.devRef .tc main_cst_2) = constant (F := Ideal) S_ .f32 0x00000000#32) :
    after hostOps0_1 V (Proc.devRef .tc main_v14) = Cert.Network.invRoot e := by
  dsimp only [hostOps0_1]
  after_results_simp
  simp only [hm, hr, hz, TRef.toBuf, TRef.ofBuf, cast_eq]
  unfold Cert.Network.invRoot
  rfl

/-! ## The third stretch -/

/-- The column of weights, from the inverse roots and the message end points. -/
theorem tail_weights (V : Valuation τ sig (Elt Ideal)) (e : IVec Cert.ReferenceIdeal.S2x800000 32)
    (hs : V (Proc.devRef .tc main_v3) = Cert.Network.sources e) (ht : V (Proc.devRef .tc main_v6) = Cert.Network.targets e)
    (hi : V (Proc.devRef .tc main_v14) = Cert.Network.invRoot e) :
    after hostOps0_2 V (Proc.devRef .tc main_v30) = Cert.Network.weightColumn e := by
  dsimp only [hostOps0_2]
  after_results_simp
  simp only [hs, ht, hi, same_gather1]
  unfold Cert.Network.weightColumn Cert.Network.weight Cert.Network.wrapped
  rfl

end Cert.KernelIdeal.Opening

end
-- ==== Proof.KernelIsNetwork.lean ====
/-
  The kernel program computes the network.

  At the end of the kernel program the buffers are one fold of operations over the buffers as the first region finds
  them (the fold theorem): region, host stretch, region, host stretch, region, host stretch, region. Before the first
  region the host has written the message sources and targets, the column of weights and nothing else that matters;
  those and the arguments are kept to the end. Walking the fold one stage at a time — a region writes the dense function
  of what the stretch before it left, a stretch writes one propagation step of what the region before it left, and a
  bias as a row — the first result buffer ends holding the three layers `Cert.Network.threeLayers` of the argument
  arrays and the second their read-out `Cert.Network.readout`. The differences in spelling between the two programs —
  a reshape where the other broadcasts, a widening after a gather, typed references around the outlined select, records
  named twice — change no value at the ideal values, and each is removed where it occurs, on a small term.
-/
import proofs.«150815_j19430432047388_2_alg».proof.Proof.FirstStretches

set_option maxRecDepth 16384

noncomputable section

namespace Cert.KernelIdeal.AsNetwork

open Idealize.ShloMosaic Idealize.ShloMosaic.TcCoe Idealize.SL.Sem Idealize.ShloMosaic.StableHlo
open Cert.KernelIdeal Cert.KernelIdeal.Gen Cert.KernelIdeal.Fold Cert.KernelIdeal.Stretches Cert.KernelIdeal.Opening Cert.Dense

/-! ## What the first region finds -/

section Entry

variable (m : (ℓ : Loc nD τ sig) → Buf (Elt Ideal) ℓ) (ρ : Dev nD → PrngReg) (c : Dev nD)

/-- The message sources, as the host's first stretch wrote them; the later opening stretches keep them. -/
theorem entry_sources : W3 m ρ c (Proc.devRef .tc main_v3) = Cert.Network.sources (m ((c.tc : Thread nD τ).loc main_arg1)) := by
  show after hostOps0_2 (after hostOps0_1 (after hostOps0 (W0 m ρ c))) (Proc.devRef .tc main_v3) = _
  rw [early_tail _ _ (by decide : main_v3 ∈ earlyRefs), early_where _ _ (by decide : main_v3 ∈ earlyRefs), head_sources]

/-- The message targets. -/
theorem entry_targets : W3 m ρ c (Proc.devRef .tc main_v6) = Cert.Network.targets (m ((c.tc : Thread nD τ).loc main_arg1)) := by
  show after hostOps0_2 (after hostOps0_1 (after hostOps0 (W0 m ρ c))) (Proc.devRef .tc main_v6) = _
  rw [early_tail _ _ (by decide : main_v6 ∈ earlyRefs), early_where _ _ (by decide : main_v6 ∈ earlyRefs), head_targets]

/-- The column of weights: the degrees from the first stretch, their inverse roots from the outlined select, gathered at
    both end points of every message and multiplied by the third stretch. -/
theorem entry_weights : W3 m ρ c (Proc.devRef .tc main_v30) = Cert.Network.weightColumn (m ((c.tc : Thread nD τ).loc main_arg1)) := by
  show after hostOps0_2 (after hostOps0_1 (after hostOps0 (W0 m ρ c))) (Proc.devRef .tc main_v30) = _
  refine (tail_weights _ ((W0 m ρ c) (Proc.devRef .tc main_arg1)) ?_ ?_ ?_).trans rfl
  · rw [early_where _ _ (by decide : main_v3 ∈ earlyRefs), head_sources]
  · rw [early_where _ _ (by decide : main_v6 ∈ earlyRefs), head_targets]
  · refine where_out _ _ ?_ ?_ (head_zero _)
    · exact head_mask _
    · exact head_roots _

/-- Argument 0 is as launched when the first region is entered. -/
theorem entry_arg0 : W3 m ρ c (Proc.devRef .tc main_arg0) = (m ((c.tc : Thread nD τ).loc main_arg0)) := by
  show after hostOps0_2 (after hostOps0_1 (after hostOps0 (W0 m ρ c))) (Proc.devRef .tc main_arg0) = _
  rw [early_tail _ _ (by decide : main_arg0 ∈ earlyRefs), early_where _ _ (by decide : main_arg0 ∈ earlyRefs),
    head_args _ _ (by decide : main_arg0 ∈ earlyRefs) (by decide) (by decide)]

/-- Argument 3 is as launched when the first region is entered. -/
theorem entry_arg3 : W3 m ρ c (Proc.devRef .tc main_arg3) = (m ((c.tc : Thread nD τ).loc main_arg3)) := by
  show after hostOps0_2 (after hostOps0_1 (after hostOps0 (W0 m ρ c))) (Proc.devRef .tc main_arg3) = _
  rw [early_tail _ _ (by decide : main_arg3 ∈ earlyRefs), early_where _ _ (by decide : main_arg3 ∈ earlyRefs),
    head_args _ _ (by decide : main_arg3 ∈ earlyRefs) (by decide) (by decide)]

/-- Argument 4 is as launched when the first region is entered. -/
theorem entry_arg4 : W3 m ρ c (Proc.devRef .tc main_arg4) = (m ((c.tc : Thread nD τ).loc main_arg4)) := by
  show after hostOps0_2 (after hostOps0_1 (after hostOps0 (W0 m ρ c))) (Proc.devRef .tc main_arg4) = _
  rw [early_tail _ _ (by decide : main_arg4 ∈ earlyRefs), early_where _ _ (by decide : main_arg4 ∈ earlyRefs),
    head_args _ _ (by decide : main_arg4 ∈ earlyRefs) (by decide) (by decide)]

/-- Argument 5 is as launched when the first region is entered. -/
theorem entry_arg5 : W3 m ρ c (Proc.devRef .tc main_arg5) = (m ((c.tc : Thread nD τ).loc main_arg5)) := by
  show after hostOps0_2 (after hostOps0_1 (after hostOps0 (W0 m ρ c))) (Proc.devRef .tc main_arg5) = _
  rw [early_tail _ _ (by decide : main_arg5 ∈ earlyRefs), early_where _ _ (by decide : main_arg5 ∈ earlyRefs),
    head_args _ _ (by decide : main_arg5 ∈ earlyRefs) (by decide) (by decide)]

/-- Argument 6 is as launched when the first region is entered. -/
theorem entry_arg6 : W3 m ρ c (Proc.devRef .tc main_arg6) = (m ((c.tc : Thread nD τ).loc main_arg6)) := by
  show after hostOps0_2 (after hostOps0_1 (after hostOps0 (W0 m ρ c))) (Proc.devRef .tc main_arg6) = _
  rw [early_tail _ _ (by decide : main_arg6 ∈ earlyRefs), early_where _ _ (by decide : main_arg6 ∈ earlyRefs),
    head_args _ _ (by decide : main_arg6 ∈ earlyRefs) (by decide) (by decide)]

/-- Argument 7 is as launched when the first region is entered. -/
theorem entry_arg7 : W3 m ρ c (Proc.devRef .tc main_arg7) = (m ((c.tc : Thread nD τ).loc main_arg7)) := by
  show after hostOps0_2 (after hostOps0_1 (after hostOps0 (W0 m ρ c))) (Proc.devRef .tc main_arg7) = _
  rw [early_tail _ _ (by decide : main_arg7 ∈ earlyRefs), early_where _ _ (by decide : main_arg7 ∈ earlyRefs),
    head_args _ _ (by decide : main_arg7 ∈ earlyRefs) (by decide) (by decide)]

/-- Argument 8 is as launched when the first region is entered. -/
theorem entry_arg8 : W3 m ρ c (Proc.devRef .tc main_arg8) = (m ((c.tc : Thread nD τ).loc main_arg8)) := by
  show after hostOps0_2 (after hostOps0_1 (after hostOps0 (W0 m ρ c))) (Proc.devRef .tc main_arg8) = _
  rw [early_tail _ _ (by decide : main_arg8 ∈ earlyRefs), early_where _ _ (by decide : main_arg8 ∈ earlyRefs),
    head_args _ _ (by decide : main_arg8 ∈ earlyRefs) (by decide) (by decide)]

/-- Argument 9 is as launched when the first region is entered. -/
theorem entry_arg9 : W3 m ρ c (Proc.devRef .tc main_arg9) = (m ((c.tc : Thread nD τ).loc main_arg9)) := by
  show after hostOps0_2 (after hostOps0_1 (after hostOps0 (W0 m ρ c))) (Proc.devRef .tc main_arg9) = _
  rw [early_tail _ _ (by decide : main_arg9 ∈ earlyRefs), early_where _ _ (by decide : main_arg9 ∈ earlyRefs),
    head_args _ _ (by decide : main_arg9 ∈ earlyRefs) (by decide) (by decide)]

/-- Argument 10 is as launched when the first region is entered. -/
theorem entry_arg10 : W3 m ρ c (Proc.devRef .tc main_arg10) = (m ((c.tc : Thread nD τ).loc main_arg10)) := by
  show after hostOps0_2 (after hostOps0_1 (after hostOps0 (W0 m ρ c))) (Proc.devRef .tc main_arg10) = _
  rw [early_tail _ _ (by decide : main_arg10 ∈ earlyRefs), early_where _ _ (by decide : main_arg10 ∈ earlyRefs),
    head_args _ _ (by decide : main_arg10 ∈ earlyRefs) (by decide) (by decide)]

end Entry

/-! ## The stages, from any contents the first region may find -/

/-- After the third stretch: the aggregated-features buffer holds the last propagation step, the bias-row buffer the last
    layer's bias, and the kept buffers are as the first region found them. -/
theorem chain (V3 : Valuation τ sig (Elt Ideal)) (e : IVec Cert.ReferenceIdeal.S2x800000 32)
    (x : FVec Ideal Cert.ReferenceIdeal.S100000x64 .f32) (W0 : FVec Ideal Cert.ReferenceIdeal.S64x64 .f32) (b0 : FVec Ideal Cert.ReferenceIdeal.S64 .f32)
    (W1 : FVec Ideal Cert.ReferenceIdeal.S64x64 .f32) (b1 : FVec Ideal Cert.ReferenceIdeal.S64 .f32)
    (W2 : FVec Ideal Cert.ReferenceIdeal.S64x64 .f32) (b2 : FVec Ideal Cert.ReferenceIdeal.S64 .f32)
    (hs : V3 (Proc.devRef .tc main_v3) = Cert.Network.sources e) (ht : V3 (Proc.devRef .tc main_v6) = Cert.Network.targets e)
    (hw : V3 (Proc.devRef .tc main_v30) = Cert.Network.weightColumn e)
    (h0 : V3 (Proc.devRef .tc main_arg0) = x) (h3 : V3 (Proc.devRef .tc main_arg3) = W0) (h4 : V3 (Proc.devRef .tc main_arg4) = b0)
    (h5 : V3 (Proc.devRef .tc main_arg5) = W1) (h6 : V3 (Proc.devRef .tc main_arg6) = b1) (h7 : V3 (Proc.devRef .tc main_arg7) = W2)
    (h8 : V3 (Proc.devRef .tc main_arg8) = b2) :
    (after hostOps3 (step2.result (after hostOps2 (step1.result (after hostOps1 (step0.result V3)))))) (Proc.devRef .tc main_v74) = Cert.Network.propagate e (product (Cert.Network.layer e (Cert.Network.layer e x W0 b0) W1 b1) W2)
    ∧ (after hostOps3 (step2.result (after hostOps2 (step1.result (after hostOps1 (step0.result V3)))))) (Proc.devRef .tc main_v75) = Cert.Network.biasRow b2
    ∧ Same V3 (after hostOps3 (step2.result (after hostOps2 (step1.result (after hostOps1 (step0.result V3)))))) := by
  have s4 : Same V3 (step0.result V3) := same_step0 V3
  have s5 : Same V3 (after hostOps1 (step0.result V3)) := s4.trans (same_ops1 _)
  have s6 : Same V3 (step1.result (after hostOps1 (step0.result V3))) := s5.trans (same_step1 _)
  have s7 : Same V3 (after hostOps2 (step1.result (after hostOps1 (step0.result V3)))) := s6.trans (same_ops2 _)
  have s8 : Same V3 (step2.result (after hostOps2 (step1.result (after hostOps1 (step0.result V3))))) := s7.trans (same_step2 _)
  have g31 : (step0.result V3) (Proc.devRef .tc main_v31) = product x W0 := by rw [step0_out, h0, h3]
  have g44 : (after hostOps1 (step0.result V3)) (Proc.devRef .tc main_v44) = Cert.Network.propagate e (product x W0) := by
    rw [stretch1_agg _ e ((s4 _ (by decide : main_v3 ∈ keptRefs)).trans hs) ((s4 _ (by decide : main_v6 ∈ keptRefs)).trans ht) ((s4 _ (by decide : main_v30 ∈ keptRefs)).trans hw), g31]
  have g45 : (after hostOps1 (step0.result V3)) (Proc.devRef .tc main_v45) = Cert.Network.biasRow b0 := by
    rw [stretch1_row, (s4 _ (by decide : main_arg4 ∈ keptRefs)).trans h4]
  have g46 : (step1.result (after hostOps1 (step0.result V3))) (Proc.devRef .tc main_v46) = product (Cert.Network.layer e x W0 b0) W1 := by
    rw [step1_out, g44, g45, (s5 _ (by decide : main_arg5 ∈ keptRefs)).trans h5]; rfl
  have g59 : (after hostOps2 (step1.result (after hostOps1 (step0.result V3)))) (Proc.devRef .tc main_v59) = Cert.Network.propagate e (product (Cert.Network.layer e x W0 b0) W1) := by
    rw [stretch2_agg _ e ((s6 _ (by decide : main_v3 ∈ keptRefs)).trans hs) ((s6 _ (by decide : main_v6 ∈ keptRefs)).trans ht) ((s6 _ (by decide : main_v30 ∈ keptRefs)).trans hw), g46]
  have g60 : (after hostOps2 (step1.result (after hostOps1 (step0.result V3)))) (Proc.devRef .tc main_v60) = Cert.Network.biasRow b1 := by
    rw [stretch2_row, (s6 _ (by decide : main_arg6 ∈ keptRefs)).trans h6]
  have g61 : (step2.result (after hostOps2 (step1.result (after hostOps1 (step0.result V3))))) (Proc.devRef .tc main_v61) = product (Cert.Network.layer e (Cert.Network.layer e x W0 b0) W1 b1) W2 := by
    rw [step2_out, g59, g60, (s7 _ (by decide : main_arg7 ∈ keptRefs)).trans h7]; rfl
  refine ⟨?_, ?_, s8.trans (same_ops3 _)⟩
  · rw [stretch3_agg _ e ((s8 _ (by decide : main_v3 ∈ keptRefs)).trans hs) ((s8 _ (by decide : main_v6 ∈ keptRefs)).trans ht) ((s8 _ (by decide : main_v30 ∈ keptRefs)).trans hw), g61]
  · rw [stretch3_row, (s8 _ (by decide : main_arg8 ∈ keptRefs)).trans h8]

/-- The first result buffer: the three layers. -/
theorem chain_first (V3 : Valuation τ sig (Elt Ideal)) (e : IVec Cert.ReferenceIdeal.S2x800000 32)
    (x : FVec Ideal Cert.ReferenceIdeal.S100000x64 .f32) (W0 : FVec Ideal Cert.ReferenceIdeal.S64x64 .f32) (b0 : FVec Ideal Cert.ReferenceIdeal.S64 .f32)
    (W1 : FVec Ideal Cert.ReferenceIdeal.S64x64 .f32) (b1 : FVec Ideal Cert.ReferenceIdeal.S64 .f32)
    (W2 : FVec Ideal Cert.ReferenceIdeal.S64x64 .f32) (b2 : FVec Ideal Cert.ReferenceIdeal.S64 .f32)
    (hs : V3 (Proc.devRef .tc main_v3) = Cert.Network.sources e) (ht : V3 (Proc.devRef .tc main_v6) = Cert.Network.targets e)
    (hw : V3 (Proc.devRef .tc main_v30) = Cert.Network.weightColumn e)
    (h0 : V3 (Proc.devRef .tc main_arg0) = x) (h3 : V3 (Proc.devRef .tc main_arg3) = W0) (h4 : V3 (Proc.devRef .tc main_arg4) = b0)
    (h5 : V3 (Proc.devRef .tc main_arg5) = W1) (h6 : V3 (Proc.devRef .tc main_arg6) = b1) (h7 : V3 (Proc.devRef .tc main_arg7) = W2)
    (h8 : V3 (Proc.devRef .tc main_arg8) = b2) :
    step3b.result (step3a.result (after hostOps3 (step2.result (after hostOps2 (step1.result (after hostOps1 (step0.result V3))))))) (Proc.devRef .tc main_v77_0) = Cert.Network.threeLayers e x W0 b0 W1 b1 W2 b2 := by
  obtain ⟨g74, g75, -⟩ := chain V3 e x W0 b0 W1 b1 W2 b2 hs ht hw h0 h3 h4 h5 h6 h7 h8
  rw [step3_first, g74, g75]
  rfl

/-- The second result buffer: the read-out. -/
theorem chain_second (V3 : Valuation τ sig (Elt Ideal)) (e : IVec Cert.ReferenceIdeal.S2x800000 32)
    (x : FVec Ideal Cert.ReferenceIdeal.S100000x64 .f32) (W0 : FVec Ideal Cert.ReferenceIdeal.S64x64 .f32) (b0 : FVec Ideal Cert.ReferenceIdeal.S64 .f32)
    (W1 : FVec Ideal Cert.ReferenceIdeal.S64x64 .f32) (b1 : FVec Ideal Cert.ReferenceIdeal.S64 .f32)
    (W2 : FVec Ideal Cert.ReferenceIdeal.S64x64 .f32) (b2 : FVec Ideal Cert.ReferenceIdeal.S64 .f32)
    (hs : V3 (Proc.devRef .tc main_v3) = Cert.Network.sources e) (ht : V3 (Proc.devRef .tc main_v6) = Cert.Network.targets e)
    (hw : V3 (Proc.devRef .tc main_v30) = Cert.Network.weightColumn e)
    (h0 : V3 (Proc.devRef .tc main_arg0) = x) (h3 : V3 (Proc.devRef .tc main_arg3) = W0) (h4 : V3 (Proc.devRef .tc main_arg4) = b0)
    (h5 : V3 (Proc.devRef .tc main_arg5) = W1) (h6 : V3 (Proc.devRef .tc main_arg6) = b1) (h7 : V3 (Proc.devRef .tc main_arg7) = W2)
    (h8 : V3 (Proc.devRef .tc main_arg8) = b2)
    (Wl : FVec Ideal Cert.ReferenceIdeal.S64x64 .f32) (bl : FVec Ideal Cert.ReferenceIdeal.S64 .f32)
    (h9 : V3 (Proc.devRef .tc main_arg9) = Wl) (h10 : V3 (Proc.devRef .tc main_arg10) = bl) :
    step3b.result (step3a.result (after hostOps3 (step2.result (after hostOps2 (step1.result (after hostOps1 (step0.result V3))))))) (Proc.devRef .tc main_v77_1) = Cert.Network.readout e x W0 b0 W1 b1 W2 b2 Wl bl := by
  obtain ⟨g74, g75, s9⟩ := chain V3 e x W0 b0 W1 b1 W2 b2 hs ht hw h0 h3 h4 h5 h6 h7 h8
  have s8 : Same V3 (step2.result (after hostOps2 (step1.result (after hostOps1 (step0.result V3))))) :=
    ((((same_step0 V3).trans (same_ops1 _)).trans (same_step1 _)).trans (same_ops2 _)).trans (same_step2 _)
  rw [step3_second, g74, g75, (s9 _ (by decide : main_arg9 ∈ keptRefs)).trans h9, stretch3_lastRow, (s8 _ (by decide : main_arg10 ∈ keptRefs)).trans h10]
  rfl

/-! ## The two results -/

section Results

variable (m : (ℓ : Loc nD τ sig) → Buf (Elt Ideal) ℓ) (ρ : Dev nD → PrngReg) (c : Dev nD)

/-- The first result buffer ends holding the three layers of the argument arrays. -/
theorem first_result : W10 m ρ c (Proc.devRef .tc main_v77_0) = Cert.Network.threeLayers (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [fold m ρ c]
  exact chain_first (W3 m ρ c) _ _ _ _ _ _ _ _ (entry_sources m ρ c) (entry_targets m ρ c) (entry_weights m ρ c)
    (entry_arg0 m ρ c) (entry_arg3 m ρ c) (entry_arg4 m ρ c) (entry_arg5 m ρ c) (entry_arg6 m ρ c) (entry_arg7 m ρ c) (entry_arg8 m ρ c)

/-- The second result buffer ends holding the read-out of the argument arrays. -/
theorem second_result : W10 m ρ c (Proc.devRef .tc main_v77_1) = Cert.Network.readout (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [fold m ρ c]
  exact chain_second (W3 m ρ c) _ _ _ _ _ _ _ _ (entry_sources m ρ c) (entry_targets m ρ c) (entry_weights m ρ c)
    (entry_arg0 m ρ c) (entry_arg3 m ρ c) (entry_arg4 m ρ c) (entry_arg5 m ρ c) (entry_arg6 m ρ c) (entry_arg7 m ρ c) (entry_arg8 m ρ c)
    _ _ (entry_arg9 m ρ c) (entry_arg10 m ρ c)

end Results

end Cert.KernelIdeal.AsNetwork

end
-- ==== Proof.RefIsNetwork.lean ====
/-
  The reference program computes the network.

  The run of the reference program ends with its first result at the term `res_main_v85` of the argument arrays and
  its second at `res_main_v89`: the program's operations composed. Those terms are, operation for operation, the three
  layers `Cert.Network.threeLayers` and the read-out `Cert.Network.readout` — the node numbers of the messages, the degrees,
  the weights and one propagation step per layer are written out again wherever they are used, and each dense stage is
  the same matrix product, the same broadcast bias row, the same maximum with zero.
-/
import proofs.«150815_j19430432047388_2_alg».proof.Proof.RefRun
import proofs.«150815_j19430432047388_2_alg».proof.Proof.Network

set_option maxRecDepth 16384

noncomputable section

namespace Cert.ReferenceIdeal.AsNetwork

open Idealize.ShloMosaic Idealize.ShloMosaic.TcCoe Idealize.SL.Sem Cert.ReferenceIdeal Cert.Network Cert.Dense

variable (m : (ℓ : Loc nD τ sig) → Buf (Elt Ideal) ℓ) (c : Dev nD)

set_option maxHeartbeats 4000000 in
/-- The first result is the three layers of the argument arrays. -/
theorem first_result : ValueP.res_main_v85 (F := Ideal) m c
    = threeLayers (m ((c.tc : Thread nD τ).loc main_arg1)) (m ((c.tc : Thread nD τ).loc main_arg0))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8)) := by
  unfold ValueP.res_main_v85 threeLayers layer propagate weightColumn weight invRoot degree wrapped sources targets biasRow shiftRectify shift product
  rfl

set_option maxHeartbeats 4000000 in
/-- The second result is the read-out of the argument arrays. -/
theorem second_result : ValueP.res_main_v89 (F := Ideal) m c
    = readout (m ((c.tc : Thread nD τ).loc main_arg1)) (m ((c.tc : Thread nD τ).loc main_arg0))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg9)) (m ((c.tc : Thread nD τ).loc main_arg10)) := by
  unfold ValueP.res_main_v89 readout threeLayers layer propagate weightColumn weight invRoot degree wrapped sources targets biasRow shiftRectify shift product
  rfl

end Cert.ReferenceIdeal.AsNetwork

end
-- ==== Proof.lean ====
/-
  A three-layer graph convolution network with a linear read-out, on 100000 nodes with 64 features and 800000 edges:
  a kernel program against its plain reference, equal at the ideal values.

  Both programs compute, from the node features x, the edge list e, three weight matrices with their biases and a last
  weight matrix with its bias, the same function (`Cert.Network`): every layer multiplies the node features by its
  weights, sends each node's row along every message (an edge or a self loop) scaled by degree^(-1/2) at both end points,
  adds up what each node receives, adds the bias and takes the positive part; the first result is the features after
  three layers, the second their product with the last weights plus the last bias.

  The reference runs all of it as host operations. The kernel program runs the irregular part — the degrees, the
  gathers, the scatter-adds — as the same host operations, and every dense part in four kernels, each over a grid of
  ten tiles of 10000 rows: the first the product x · W0; the second and third "add the bias row, positive part, times
  the next weights"; the last "add the bias row, positive part" into one output and that times the last weights plus
  the last bias into the other. A tile of rows of a matrix product is the same rows of the whole product, and at the
  ideal values a change of float format is the identity, so each kernel's output array is the whole-array function of
  its operands, whatever the arrays hold (`Arrays0` … `Arrays3`); a region then acts on the buffers as one operation
  (`Fold`), the whole kernel program is one fold of operations over the launch contents, and reading the result
  buffers off it gives the network (`KernelIsNetwork`), which the reference's composed terms also are (`RefIsNetwork`).
  No law of the extended reals is used beyond that: the two sides are the same sums of the same products in the same
  arrangement, so the precondition that the inputs are finite is never opened.

  The frames: the two kernel programs' are the generated frame certificates; the reference's is its run with the results
  dropped. The idealisation rewrote nothing, so `preserves` asks nothing.
-/
import proofs.«150815_j19430432047388_2_alg».proof.Defs
import proofs.«150815_j19430432047388_2_alg».proof.Proof.Gen.Kernel
import proofs.«150815_j19430432047388_2_alg».proof.Proof.Gen.Kernel.Frame
import proofs.«150815_j19430432047388_2_alg».proof.Proof.Gen.KernelIdeal
import proofs.«150815_j19430432047388_2_alg».proof.Proof.Gen.KernelIdeal.Frame
import proofs.«150815_j19430432047388_2_alg».proof.Proof.Gen.ReferenceIdeal
import proofs.«150815_j19430432047388_2_alg».proof.Proof.Gen.Pre_finite_inputs
import proofs.«150815_j19430432047388_2_alg».proof.Proof.KernelRun
import proofs.«150815_j19430432047388_2_alg».proof.Proof.KernelIsNetwork
import proofs.«150815_j19430432047388_2_alg».proof.Proof.RefIsNetwork
import Idealize.ShloMosaic.Adequacy
import Idealize.ShloMosaic.Init

noncomputable section

namespace Cert.Proof

open Idealize.ShloMosaic Idealize.ShloMosaic.TcCoe Idealize.SL.Sem

/-- The kernel program as printed runs, and leaves its arguments as they were: the generated frame certificate. -/
theorem frame_kernel : Cert.frame_Kernel := fun m ρ _ => Cert.Kernel.Gen.frame m ρ

/-- So does its idealisation. -/
theorem frame_ideal : Cert.frame_KernelIdeal := fun m ρ _ => Cert.KernelIdeal.Gen.frame m ρ

/-- The reference runs, and leaves its arguments as they were: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealisation rewrote no operation. -/
theorem preserves : Cert.preserves_Kernel_KernelIdeal := trivial

/-- From memories that agree on the arguments both programs end with the three layers of the arguments in the first
    result and their read-out in the second. -/
theorem algebraic : Cert.algebraic_KernelIdeal_ReferenceIdeal := by
  intro m ρ m' ρ' _ hagree
  refine ⟨fun c => Cert.Network.threeLayers (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)),
    fun c => Cert.Network.readout (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.AsNetwork.first_result m ρ c),
      (h c).2.1.trans (Cert.KernelIdeal.AsNetwork.second_result m ρ c), (h c).2.2⟩) (Cert.KernelIdeal.RunEnd.run_results m ρ)
  · refine (θ_run Cert.ReferenceIdeal.defs _ _).mono (fun r h c => ?_) (Cert.ReferenceIdeal.ValueP.run (F := Ideal) m' ρ')
    obtain ⟨a0, a1, a2, a3, a4, a5, a6, a7, a8, a9, a10⟩ := hagree c
    refine ⟨(h c).1.trans ?_, (h c).2.1.trans ?_, (h c).2.2⟩
    · show Cert.ReferenceIdeal.ValueP.res_main_v85 m' c = Cert.Network.threeLayers (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      rw [Cert.ReferenceIdeal.AsNetwork.first_result m' c, a0, a1, a3, a4, a5, a6, a7, a8]
    · show Cert.ReferenceIdeal.ValueP.res_main_v89 m' c = Cert.Network.readout (m ((c.tc : Thread Cert.KernelIdeal.nD Cert.KernelIdeal.τ).loc Cert.KernelIdeal.main_arg1))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
      rw [Cert.ReferenceIdeal.AsNetwork.second_result m' c, a0, a1, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
